-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.sign_bit.Statement Cert.KernelIdeal.S2000x256 .f32
  ∧ IdealRules.sign_bit.Statement Cert.KernelIdeal.S2000x128 .f32
  ∧ IdealRules.sign_bit.Statement Cert.KernelIdeal.S2000x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S256 : Shape := ⟨1, ![256]⟩
abbrev S1x256 : Shape := ⟨2, ![1, 256]⟩
abbrev S1x128 : Shape := ⟨2, ![1, 128]⟩
abbrev S1x40 : Shape := ⟨2, ![1, 40]⟩
abbrev S100000x128 : Shape := ⟨2, ![100000, 128]⟩
abbrev S2000x256 : Shape := ⟨2, ![2000, 256]⟩
abbrev S2000x128 : Shape := ⟨2, ![2000, 128]⟩
abbrev S1700000x128 : Shape := ⟨2, ![1700000, 128]⟩
abbrev S100000x40 : Shape := ⟨2, ![100000, 40]⟩
abbrev S2000x40 : Shape := ⟨2, ![2000, 40]⟩
abbrev S1700000x40 : Shape := ⟨2, ![1700000, 40]⟩
abbrev S100000x1 : Shape := ⟨2, ![100000, 1]⟩

abbrev nBuf : Space → Nat
  | .hbm => 192
  | .vmem => 17
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .f32⟩
  | 51 => ⟨S256, .f32⟩
  | 52 => ⟨S_, .f32⟩
  | 53 => ⟨S256, .f32⟩
  | 54 => ⟨S256, .f32⟩
  | 55 => ⟨S_, .i32⟩
  | 56 => ⟨S_, .f32⟩
  | 57 => ⟨S256, .f32⟩
  | 58 => ⟨S1x256, .f32⟩
  | 59 => ⟨S_, .f32⟩
  | 60 => ⟨S1x256, .f32⟩
  | 61 => ⟨S1x256, .f32⟩
  | 62 => ⟨S100000x256, .f32⟩
  | 63 => ⟨S100000x256, .f32⟩
  | 64 => ⟨S100000x256, .f32⟩
  | 65 => ⟨S_, .f32⟩
  | 66 => ⟨S_, .f32⟩
  | 67 => ⟨S_, .f32⟩
  | 68 => ⟨S_, .f32⟩
  | 69 => ⟨S256, .f32⟩
  | 70 => ⟨S256, .f32⟩
  | 71 => ⟨S256, .f32⟩
  | 72 => ⟨S_, .f32⟩
  | 73 => ⟨S_, .i1⟩
  | 74 => ⟨S_, .f32⟩
  | 75 => ⟨S_, .f32⟩
  | 76 => ⟨S256, .f32⟩
  | 77 => ⟨S256, .f32⟩
  | 78 => ⟨S_, .f32⟩
  | 79 => ⟨S256, .f32⟩
  | 80 => ⟨S256, .f32⟩
  | 81 => ⟨S256, .f32⟩
  | 82 => ⟨S256x128, .f32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S256x128, .f32⟩
  | 90 => ⟨S256x128, .f32⟩
  | 91 => ⟨S256x128, .f32⟩
  | 92 => ⟨S256x128, .bf16⟩
  | 93 => ⟨S128x128, .f32⟩
  | 94 => ⟨S_, .f32⟩
  | 95 => ⟨S128, .f32⟩
  | 96 => ⟨S1x128, .f32⟩
  | 97 => ⟨S_, .f32⟩
  | 98 => ⟨S1x128, .f32⟩
  | 99 => ⟨S1x128, .f32⟩
  | 100 => ⟨S128x128, .f32⟩
  | 101 => ⟨S128x128, .f32⟩
  | 102 => ⟨S128x128, .f32⟩
  | 103 => ⟨S128x128, .bf16⟩
  | 104 => ⟨S128x40, .f32⟩
  | 105 => ⟨S_, .f32⟩
  | 106 => ⟨S40, .f32⟩
  | 107 => ⟨S1x40, .f32⟩
  | 108 => ⟨S_, .f32⟩
  | 109 => ⟨S1x40, .f32⟩
  | 110 => ⟨S1x40, .f32⟩
  | 111 => ⟨S128x40, .f32⟩
  | 112 => ⟨S128x40, .f32⟩
  | 113 => ⟨S128x40, .f32⟩
  | 114 => ⟨S128x40, .bf16⟩
  | 115 => ⟨S1x256, .f32⟩
  | 116 => ⟨S1x256, .f32⟩
  | 117 => ⟨S100000x128, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x128, .f32⟩
  | 127 => ⟨S1700000x1, .f32⟩
  | _ => ⟨S100000x256, .f32⟩

abbrev hbmTy0_1 (i : Nat) : BufTy := match i % 128 with
  | 0 => ⟨S1700000x128, .f32⟩
  | 1 => ⟨S1700000x128, .f32⟩
  | 2 => ⟨S_, .f32⟩
  | 3 => ⟨S100000x128, .f32⟩
  | 4 => ⟨S1700000x1, .i32⟩
  | 5 => ⟨S100000x128, .f32⟩
  | 6 => ⟨S1x128, .f32⟩
  | 7 => ⟨S100000x128, .f32⟩
  | 8 => ⟨S100000x128, .f32⟩
  | 9 => ⟨S100000x128, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x128, .f32⟩
  | 19 => ⟨S1700000x1, .f32⟩
  | 20 => ⟨S1700000x128, .f32⟩
  | 21 => ⟨S1700000x128, .f32⟩
  | 22 => ⟨S_, .f32⟩
  | 23 => ⟨S100000x128, .f32⟩
  | 24 => ⟨S1700000x1, .i32⟩
  | 25 => ⟨S100000x128, .f32⟩
  | 26 => ⟨S1x128, .f32⟩
  | 27 => ⟨S100000x128, .f32⟩
  | 28 => ⟨S100000x128, .f32⟩
  | 29 => ⟨S100000x40, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000x40, .f32⟩
  | 39 => ⟨S1700000x1, .f32⟩
  | 40 => ⟨S1700000x40, .f32⟩
  | 41 => ⟨S1700000x40, .f32⟩
  | 42 => ⟨S_, .f32⟩
  | 43 => ⟨S100000x40, .f32⟩
  | 44 => ⟨S1700000x1, .i32⟩
  | 45 => ⟨S100000x40, .f32⟩
  | 46 => ⟨S1x40, .f32⟩
  | 47 => ⟨S100000x40, .f32⟩
  | 48 => ⟨S100000x40, .f32⟩
  | 49 => ⟨S_, .f32⟩
  | 50 => ⟨S100000, .f32⟩
  | 51 => ⟨S_, .f32⟩
  | 52 => ⟨S100000, .f32⟩
  | 53 => ⟨S100000, .f32⟩
  | 54 => ⟨S100000x1, .f32⟩
  | 55 => ⟨S100000x40, .f32⟩
  | 56 => ⟨S100000x40, .f32⟩
  | 57 => ⟨S100000x40, .f32⟩
  | 58 => ⟨S_, .f32⟩
  | 59 => ⟨S100000, .f32⟩
  | 60 => ⟨S100000x1, .f32⟩
  | 61 => ⟨S100000x1, .f32⟩
  | 62 => ⟨S100000x40, .f32⟩
  | 63 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S1x256, .f32⟩
  | .local _ .vmem, ⟨3, _⟩ => ⟨S1x256, .f32⟩
  | .local _ .vmem, ⟨4, _⟩ => ⟨S256x128, .bf16⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .bf16⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x40, .bf16⟩
  | .local _ .vmem, ⟨15, _⟩ => ⟨S2000x40, .f32⟩
  | .local _ .vmem, ⟨16, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_cst_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_cst_1 : Ref sig .tc := ⟨.hbm, 66, rfl⟩
abbrev main_call1_v8 : Ref sig .tc := ⟨.hbm, 67, rfl⟩
abbrev main_call1_cst_2 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_cst_3 : Ref sig .tc := ⟨.hbm, 72, rfl⟩
abbrev main_call1_v12 : Ref sig .tc := ⟨.hbm, 73, rfl⟩
abbrev main_call1_cst_4 : Ref sig .tc := ⟨.hbm, 74, rfl⟩
abbrev main_call1_call0_v0 : Ref sig .tc := ⟨.hbm, 75, rfl⟩
abbrev main_call1_call0_v1 : Ref sig .tc := ⟨.hbm, 76, rfl⟩
abbrev main_v34 : Ref sig .tc := ⟨.hbm, 77, rfl⟩
abbrev main_cst_10 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_11 : Ref sig .tc := ⟨.hbm, 83, rfl⟩
abbrev main_v39 : Ref sig .tc := ⟨.hbm, 84, rfl⟩
abbrev main_v40 : Ref sig .tc := ⟨.hbm, 85, rfl⟩
abbrev main_cst_12 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_13 : Ref sig .tc := ⟨.hbm, 94, rfl⟩
abbrev main_v48 : Ref sig .tc := ⟨.hbm, 95, rfl⟩
abbrev main_v49 : Ref sig .tc := ⟨.hbm, 96, rfl⟩
abbrev main_cst_14 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_15 : Ref sig .tc := ⟨.hbm, 105, rfl⟩
abbrev main_v57 : Ref sig .tc := ⟨.hbm, 106, rfl⟩
abbrev main_v58 : Ref sig .tc := ⟨.hbm, 107, rfl⟩
abbrev main_cst_16 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_c_17 : Ref sig .tc := ⟨.hbm, 118, rfl⟩
abbrev main_v68 : Ref sig .tc := ⟨.hbm, 119, rfl⟩
abbrev main_v69 : Ref sig .tc := ⟨.hbm, 120, rfl⟩
abbrev main_c_18 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_19 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_c_20 : Ref sig .tc := ⟨.hbm, 138, rfl⟩
abbrev main_v85 : Ref sig .tc := ⟨.hbm, 139, rfl⟩
abbrev main_v86 : Ref sig .tc := ⟨.hbm, 140, rfl⟩
abbrev main_c_21 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_22 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_c_23 : Ref sig .tc := ⟨.hbm, 158, rfl⟩
abbrev main_v102 : Ref sig .tc := ⟨.hbm, 159, rfl⟩
abbrev main_v103 : Ref sig .tc := ⟨.hbm, 160, rfl⟩
abbrev main_c_24 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_25 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_call2_cst : Ref sig .tc := ⟨.hbm, 177, rfl⟩
abbrev main_call2_v0 : Ref sig .tc := ⟨.hbm, 178, rfl⟩
abbrev main_call2_cst_0 : Ref sig .tc := ⟨.hbm, 179, rfl⟩
abbrev main_call2_v1 : Ref sig .tc := ⟨.hbm, 180, rfl⟩
abbrev main_call2_v2 : Ref sig .tc := ⟨.hbm, 181, rfl⟩
abbrev main_call2_v3 : Ref sig .tc := ⟨.hbm, 182, rfl⟩
abbrev main_call2_v4 : Ref sig .tc := ⟨.hbm, 183, rfl⟩
abbrev main_call2_v5 : Ref sig .tc := ⟨.hbm, 184, rfl⟩
abbrev main_call2_v6 : Ref sig .tc := ⟨.hbm, 185, rfl⟩
abbrev main_call2_cst_1 : Ref sig .tc := ⟨.hbm, 186, rfl⟩
abbrev main_call2_v7 : Ref sig .tc := ⟨.hbm, 187, rfl⟩
abbrev main_call2_v8 : Ref sig .tc := ⟨.hbm, 188, rfl⟩
abbrev main_call2_v9 : Ref sig .tc := ⟨.hbm, 189, rfl⟩
abbrev main_call2_v10 : Ref sig .tc := ⟨.hbm, 190, rfl⟩
abbrev main_v118 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [BitOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S100000x256_0_1 : S1x256.BroadcastsInDim S100000x256 (![0, 1] : Fin 2 → Fin S100000x256.rank)
  reducesTo_S256x128_S128_d0 : S256x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S1x128_S256x128_0_1 : S1x128.BroadcastsInDim S256x128 (![0, 1] : Fin 2 → Fin S256x128.rank)
  bitsLt_bf16_f32 : FTy.bits .bf16 < FTy.bits .f32
  reducesTo_S128x128_S128_d0 : S128x128.ReducesTo [0] S128
  bcast_S1x128_S128x128_0_1 : S1x128.BroadcastsInDim S128x128 (![0, 1] : Fin 2 → Fin S128x128.rank)
  reducesTo_S128x40_S40_d0 : S128x40.ReducesTo [0] S40
  bcast_S40_S1x40_1 : S40.BroadcastsInDim S1x40 (![1] : Fin 1 → Fin S1x40.rank)
  bcast_S_S1x40 : S_.BroadcastsInDim S1x40 (![] : Fin 0 → Fin S1x40.rank)
  bcast_S1x40_S128x40_0_1 : S1x40.BroadcastsInDim S128x40 (![0, 1] : Fin 2 → Fin S128x40.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S2000x40_S2000x40_0_0 : ∀ a, (![0, 0] : Fin 2 → Nat) a + S2000x40.size a ≤ S2000x40.size a
  h_S2000x40 : 0 < S2000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S1x40_S100000x40_0_1 : S1x40.BroadcastsInDim S100000x40 (![0, 1] : Fin 2 → Fin S100000x40.rank)
  reducesTo_S100000x40_S100000_d1 : S100000x40.ReducesTo [1] S100000
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .bf16 = 32 ∨ (Rect.block (s := S128x40) S128x40.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v65) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v66) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v67) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v83) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v84) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v100) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v101) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S256 : Shape := ⟨1, ![256]⟩
abbrev S1x256 : Shape := ⟨2, ![1, 256]⟩
abbrev S1x128 : Shape := ⟨2, ![1, 128]⟩
abbrev S100000x128 : Shape := ⟨2, ![100000, 128]⟩
abbrev S1700000x128 : Shape := ⟨2, ![1700000, 128]⟩
abbrev S1x40 : Shape := ⟨2, ![1, 40]⟩
abbrev S100000x40 : Shape := ⟨2, ![100000, 40]⟩
abbrev S1700000x40 : Shape := ⟨2, ![1700000, 40]⟩
abbrev S100000x1 : Shape := ⟨2, ![100000, 1]⟩

abbrev nBuf : Space → Nat
  | .hbm => 194
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S1700000x1, .f32⟩
  | 51 => ⟨S_, .f32⟩
  | 52 => ⟨S256, .f32⟩
  | 53 => ⟨S_, .f32⟩
  | 54 => ⟨S256, .f32⟩
  | 55 => ⟨S256, .f32⟩
  | 56 => ⟨S_, .i32⟩
  | 57 => ⟨S_, .f32⟩
  | 58 => ⟨S256, .f32⟩
  | 59 => ⟨S1x256, .f32⟩
  | 60 => ⟨S_, .f32⟩
  | 61 => ⟨S1x256, .f32⟩
  | 62 => ⟨S1x256, .f32⟩
  | 63 => ⟨S100000x256, .f32⟩
  | 64 => ⟨S100000x256, .f32⟩
  | 65 => ⟨S100000x256, .f32⟩
  | 66 => ⟨S_, .f32⟩
  | 67 => ⟨S_, .f32⟩
  | 68 => ⟨S_, .f32⟩
  | 69 => ⟨S_, .f32⟩
  | 70 => ⟨S256, .f32⟩
  | 71 => ⟨S256, .f32⟩
  | 72 => ⟨S256, .f32⟩
  | 73 => ⟨S_, .f32⟩
  | 74 => ⟨S_, .i1⟩
  | 75 => ⟨S_, .f32⟩
  | 76 => ⟨S_, .f32⟩
  | 77 => ⟨S256, .f32⟩
  | 78 => ⟨S256, .f32⟩
  | 79 => ⟨S1x256, .f32⟩
  | 80 => ⟨S100000x256, .f32⟩
  | 81 => ⟨S100000x256, .f32⟩
  | 82 => ⟨S_, .f32⟩
  | 83 => ⟨S256, .f32⟩
  | 84 => ⟨S256, .f32⟩
  | 85 => ⟨S256, .f32⟩
  | 86 => ⟨S1x256, .f32⟩
  | 87 => ⟨S100000x256, .f32⟩
  | 88 => ⟨S100000x256, .f32⟩
  | 89 => ⟨S100000x256, .f32⟩
  | 90 => ⟨S256x128, .f32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S256x128, .f32⟩
  | 98 => ⟨S256x128, .f32⟩
  | 99 => ⟨S256x128, .f32⟩
  | 100 => ⟨S100000x128, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x128, .f32⟩
  | 111 => ⟨S1700000x128, .f32⟩
  | 112 => ⟨S_, .f32⟩
  | 113 => ⟨S100000x128, .f32⟩
  | 114 => ⟨S1700000x1, .i32⟩
  | 115 => ⟨S100000x128, .f32⟩
  | 116 => ⟨S1x128, .f32⟩
  | 117 => ⟨S100000x128, .f32⟩
  | 118 => ⟨S100000x128, .f32⟩
  | 119 => ⟨S100000x128, .f32⟩
  | 120 => ⟨S128x128, .f32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S128x128, .f32⟩
  | _ => ⟨S100000x256, .f32⟩

abbrev hbmTy0_1 (i : Nat) : BufTy := match i % 128 with
  | 0 => ⟨S128x128, .f32⟩
  | 1 => ⟨S128x128, .f32⟩
  | 2 => ⟨S100000x128, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x128, .f32⟩
  | 12 => ⟨S1700000x128, .f32⟩
  | 13 => ⟨S1700000x128, .f32⟩
  | 14 => ⟨S_, .f32⟩
  | 15 => ⟨S100000x128, .f32⟩
  | 16 => ⟨S1700000x1, .i32⟩
  | 17 => ⟨S100000x128, .f32⟩
  | 18 => ⟨S1x128, .f32⟩
  | 19 => ⟨S100000x128, .f32⟩
  | 20 => ⟨S100000x128, .f32⟩
  | 21 => ⟨S100000x128, .f32⟩
  | 22 => ⟨S128x40, .f32⟩
  | 23 => ⟨S_, .f32⟩
  | 24 => ⟨S40, .f32⟩
  | 25 => ⟨S1x40, .f32⟩
  | 26 => ⟨S_, .f32⟩
  | 27 => ⟨S1x40, .f32⟩
  | 28 => ⟨S1x40, .f32⟩
  | 29 => ⟨S128x40, .f32⟩
  | 30 => ⟨S128x40, .f32⟩
  | 31 => ⟨S128x40, .f32⟩
  | 32 => ⟨S100000x40, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000x40, .f32⟩
  | 42 => ⟨S1700000x40, .f32⟩
  | 43 => ⟨S1700000x40, .f32⟩
  | 44 => ⟨S_, .f32⟩
  | 45 => ⟨S100000x40, .f32⟩
  | 46 => ⟨S1700000x1, .i32⟩
  | 47 => ⟨S100000x40, .f32⟩
  | 48 => ⟨S1x40, .f32⟩
  | 49 => ⟨S100000x40, .f32⟩
  | 50 => ⟨S100000x40, .f32⟩
  | 51 => ⟨S_, .f32⟩
  | 52 => ⟨S100000, .f32⟩
  | 53 => ⟨S_, .f32⟩
  | 54 => ⟨S100000, .f32⟩
  | 55 => ⟨S100000, .f32⟩
  | 56 => ⟨S100000x1, .f32⟩
  | 57 => ⟨S100000x40, .f32⟩
  | 58 => ⟨S100000x40, .f32⟩
  | 59 => ⟨S100000x40, .f32⟩
  | 60 => ⟨S_, .f32⟩
  | 61 => ⟨S100000, .f32⟩
  | 62 => ⟨S100000x1, .f32⟩
  | 63 => ⟨S100000x1, .f32⟩
  | 64 => ⟨S100000x40, .f32⟩
  | 65 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_c_9 : Ref sig .tc := ⟨.hbm, 56, rfl⟩
abbrev main_call1_cst : Ref sig .tc := ⟨.hbm, 57, rfl⟩
abbrev main_call1_v0 : Ref sig .tc := ⟨.hbm, 58, rfl⟩
abbrev main_call1_v1 : Ref sig .tc := ⟨.hbm, 59, rfl⟩
abbrev main_call1_cst_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_cst_1 : Ref sig .tc := ⟨.hbm, 67, rfl⟩
abbrev main_call1_v8 : Ref sig .tc := ⟨.hbm, 68, rfl⟩
abbrev main_call1_cst_2 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_cst_3 : Ref sig .tc := ⟨.hbm, 73, rfl⟩
abbrev main_call1_v12 : Ref sig .tc := ⟨.hbm, 74, rfl⟩
abbrev main_call1_cst_4 : Ref sig .tc := ⟨.hbm, 75, rfl⟩
abbrev main_call1_call0_v0 : Ref sig .tc := ⟨.hbm, 76, rfl⟩
abbrev main_call1_call0_v1 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_10 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_11 : Ref sig .tc := ⟨.hbm, 91, rfl⟩
abbrev main_v47 : Ref sig .tc := ⟨.hbm, 92, rfl⟩
abbrev main_v48 : Ref sig .tc := ⟨.hbm, 93, rfl⟩
abbrev main_cst_12 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_c_13 : Ref sig .tc := ⟨.hbm, 101, rfl⟩
abbrev main_v55 : Ref sig .tc := ⟨.hbm, 102, rfl⟩
abbrev main_v56 : Ref sig .tc := ⟨.hbm, 103, rfl⟩
abbrev main_c_14 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_15 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_cst_16 : Ref sig .tc := ⟨.hbm, 121, rfl⟩
abbrev main_v72 : Ref sig .tc := ⟨.hbm, 122, rfl⟩
abbrev main_v73 : Ref sig .tc := ⟨.hbm, 123, rfl⟩
abbrev main_cst_17 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_c_18 : Ref sig .tc := ⟨.hbm, 131, rfl⟩
abbrev main_v80 : Ref sig .tc := ⟨.hbm, 132, rfl⟩
abbrev main_v81 : Ref sig .tc := ⟨.hbm, 133, rfl⟩
abbrev main_c_19 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_20 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_21 : Ref sig .tc := ⟨.hbm, 151, rfl⟩
abbrev main_v97 : Ref sig .tc := ⟨.hbm, 152, rfl⟩
abbrev main_v98 : Ref sig .tc := ⟨.hbm, 153, rfl⟩
abbrev main_cst_22 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_c_23 : Ref sig .tc := ⟨.hbm, 161, rfl⟩
abbrev main_v105 : Ref sig .tc := ⟨.hbm, 162, rfl⟩
abbrev main_v106 : Ref sig .tc := ⟨.hbm, 163, rfl⟩
abbrev main_c_24 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_cst_25 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_call2_cst : Ref sig .tc := ⟨.hbm, 179, rfl⟩
abbrev main_call2_v0 : Ref sig .tc := ⟨.hbm, 180, rfl⟩
abbrev main_call2_cst_0 : Ref sig .tc := ⟨.hbm, 181, rfl⟩
abbrev main_call2_v1 : Ref sig .tc := ⟨.hbm, 182, rfl⟩
abbrev main_call2_v2 : Ref sig .tc := ⟨.hbm, 183, rfl⟩
abbrev main_call2_v3 : Ref sig .tc := ⟨.hbm, 184, rfl⟩
abbrev main_call2_v4 : Ref sig .tc := ⟨.hbm, 185, rfl⟩
abbrev main_call2_v5 : Ref sig .tc := ⟨.hbm, 186, rfl⟩
abbrev main_call2_v6 : Ref sig .tc := ⟨.hbm, 187, rfl⟩
abbrev main_call2_cst_1 : Ref sig .tc := ⟨.hbm, 188, rfl⟩
abbrev main_call2_v7 : Ref sig .tc := ⟨.hbm, 189, rfl⟩
abbrev main_call2_v8 : Ref sig .tc := ⟨.hbm, 190, rfl⟩
abbrev main_call2_v9 : Ref sig .tc := ⟨.hbm, 191, rfl⟩
abbrev main_call2_v10 : Ref sig .tc := ⟨.hbm, 192, rfl⟩
abbrev main_v120 : Ref sig .tc := ⟨.hbm, 193, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S100000x256_0_1 : S1x256.BroadcastsInDim S100000x256 (![0, 1] : Fin 2 → Fin S100000x256.rank)
  reducesTo_S256x128_S128_d0 : S256x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S1x128_S256x128_0_1 : S1x128.BroadcastsInDim S256x128 (![0, 1] : Fin 2 → Fin S256x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  reducesTo_S128x128_S128_d0 : S128x128.ReducesTo [0] S128
  bcast_S1x128_S128x128_0_1 : S1x128.BroadcastsInDim S128x128 (![0, 1] : Fin 2 → Fin S128x128.rank)
  reducesTo_S128x40_S40_d0 : S128x40.ReducesTo [0] S40
  bcast_S40_S1x40_1 : S40.BroadcastsInDim S1x40 (![1] : Fin 1 → Fin S1x40.rank)
  bcast_S_S1x40 : S_.BroadcastsInDim S1x40 (![] : Fin 0 → Fin S1x40.rank)
  bcast_S1x40_S128x40_0_1 : S1x40.BroadcastsInDim S128x40 (![0, 1] : Fin 2 → Fin S128x40.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S1x40_S100000x40_0_1 : S1x40.BroadcastsInDim S100000x40 (![0, 1] : Fin 2 → Fin S100000x40.rank)
  reducesTo_S100000x40_S100000_d1 : S100000x40.ReducesTo [1] S100000
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KRun.lean ====
/-
  The idealized kernel program's run with its result kept. Every weakly fair execution of @main ends, without a fault,
  with EVERY unscoped buffer of a core at the last boundary's contents (`Gen.W12`: the fold of the host stretches and
  of the three regions' write-backs from the launch memory); in particular the result buffer holds `W12` there and
  each argument array is as launched.
-/
import proofs.«172713_j53051436040761_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its twelve segments: the result buffer ends at the last boundary's contents and the
    eight argument arrays end as launched. -/
theorem run : θ_run defs (onTc (τ := τ) (main (F := F))) ⟨m, fun _ => 0, ρ⟩ (fun r => ∀ c : Dev nD,
      r.2.mem ((c.tc : Thread nD τ).loc main_v118) = W12 m ρ c (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v118 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.KRun

end
-- ==== Proof.RefRun.lean ====
/- — the printed reference program transcribed line by line, its three calls inlined: each call replaced by its callee's
   operations over the call's buffer record. Everything else in this file is written by hand. -/
import proofs.«172713_j53051436040761_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- statements of @main up to and including %54 (the first dot_general), the calls @_where and @_var inlined -/
abbrev ops0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0xBF000000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (Host.powf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    TRef.unary (.of main_cst_3 : StableHlo.TRef sig ⟨S_, .f32⟩) main_call0.v0 id,
    TRef.unary main_call0.v0 main_call0.v1 (broadcastInDim S100000 ![] bcast_S_S100000),
    TRef.ternary (.of main_v12 : StableHlo.TRef sig ⟨S100000, .i1⟩) (.of main_v14 : StableHlo.TRef sig ⟨S100000, .f32⟩) main_call0.v1 main_call0.v2 select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    unary main_v30 main_v31 (broadcastInDim S1700000x1 ![0] bcast_S1700000_S1700000x1_0 : (⟨S1700000, .f32⟩ : BufTy).Contents (Elt F) → (⟨S1700000x1, .f32⟩ : BufTy).Contents (Elt F)),
    nullary main_cst_7 (constant S_ .f32 0x00000000#32),
    binary main_arg0 main_cst_7 main_v32 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_8 (constant S_ .f32 0x47C35000#32),
    unary main_cst_8 main_v33 (broadcastInDim S256 ![] bcast_S_S256 : (⟨S_, .f32⟩ : BufTy).Contents (Elt F) → (⟨S256, .f32⟩ : BufTy).Contents (Elt F)),
    binary main_v32 main_v33 main_v34 (Host.divf : (⟨S256, .f32⟩ : BufTy).Contents (Elt F) → (⟨S256, .f32⟩ : BufTy).Contents (Elt F) → (⟨S256, .f32⟩ : BufTy).Contents (Elt F)),
    nullary main_c_9 (constantI S_ 32 0#32),
    TRef.nullary main_call1.cst (constant S_ .f32 0x00000000#32),
    TRef.binary (.of main_arg0 : StableHlo.TRef sig ⟨S100000x256, .f32⟩) main_call1.cst main_call1.v0 (fun x v => Host.reduceAdd x v reducesTo_S100000x256_S256_d0 h_S_),
    TRef.unary main_call1.v0 main_call1.v1 (broadcastInDim S1x256 ![1] bcast_S256_S1x256_1),
    TRef.nullary main_call1.cst_0 (constant S_ .f32 0x47C35000#32),
    TRef.unary main_call1.cst_0 main_call1.v2 (broadcastInDim S1x256 ![] bcast_S_S1x256),
    TRef.binary main_call1.v1 main_call1.v2 main_call1.v3 Host.divf,
    TRef.unary main_call1.v3 main_call1.v4 (broadcastInDim S100000x256 ![0, 1] bcast_S1x256_S100000x256_0_1),
    TRef.binary (.of main_arg0 : StableHlo.TRef sig ⟨S100000x256, .f32⟩) main_call1.v4 main_call1.v5 subf,
    TRef.binary main_call1.v5 main_call1.v5 main_call1.v6 mulf,
    TRef.unary (.of main_c_9 : StableHlo.TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x256_S256_d0 h_S_),
    TRef.unary main_call1.v8 main_call1.v10 (broadcastInDim S256 ![] bcast_S_S256),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S256 ![] bcast_S_S256),
    TRef.ternary main_call1.v12 main_call1.v11 main_call1.call0.v1 main_call1.call0.v2 (fun p a b => select (broadcastInDim S256 ![] bcast_S_S256 p) a b),
    unary main_v34 main_v36 (broadcastInDim S1x256 ![1] bcast_S256_S1x256_1 : (⟨S256, .f32⟩ : BufTy).Contents (Elt F) → (⟨S1x256, .f32⟩ : BufTy).Contents (Elt F)),
    unary main_v36 main_v37 (broadcastInDim S100000x256 ![0, 1] bcast_S1x256_S100000x256_0_1 : (⟨S1x256, .f32⟩ : BufTy).Contents (Elt F) → (⟨S100000x256, .f32⟩ : BufTy).Contents (Elt F)),
    binary main_arg0 main_v37 main_v38 (subf : (⟨S100000x256, .f32⟩ : BufTy).Contents (Elt F) → (⟨S100000x256, .f32⟩ : BufTy).Contents (Elt F) → (⟨S100000x256, .f32⟩ : BufTy).Contents (Elt F)),
    nullary main_cst_10 (constant S_ .f32 0x3727C5AC#32),
    unary main_cst_10 main_v39 (broadcastInDim S256 ![] bcast_S_S256 : (⟨S_, .f32⟩ : BufTy).Contents (Elt F) → (⟨S256, .f32⟩ : BufTy).Contents (Elt F)),
    binary main_v35 main_v39 main_v40 (addf : (⟨S256, .f32⟩ : BufTy).Contents (Elt F) → (⟨S256, .f32⟩ : BufTy).Contents (Elt F) → (⟨S256, .f32⟩ : BufTy).Contents (Elt F)),
    unary main_v40 main_v41 (Host.rsqrt : (⟨S256, .f32⟩ : BufTy).Contents (Elt F) → (⟨S256, .f32⟩ : BufTy).Contents (Elt F)),
    unary main_v41 main_v42 (broadcastInDim S1x256 ![1] bcast_S256_S1x256_1 : (⟨S256, .f32⟩ : BufTy).Contents (Elt F) → (⟨S1x256, .f32⟩ : BufTy).Contents (Elt F)),
    unary main_v42 main_v43 (broadcastInDim S100000x256 ![0, 1] bcast_S1x256_S100000x256_0_1 : (⟨S1x256, .f32⟩ : BufTy).Contents (Elt F) → (⟨S100000x256, .f32⟩ : BufTy).Contents (Elt F)),
    binary main_v38 main_v43 main_v44 (mulf : (⟨S100000x256, .f32⟩ : BufTy).Contents (Elt F) → (⟨S100000x256, .f32⟩ : BufTy).Contents (Elt F) → (⟨S100000x256, .f32⟩ : BufTy).Contents (Elt F)),
    unary main_v44 main_v45 (Host.sign : (⟨S100000x256, .f32⟩ : BufTy).Contents (Elt F) → (⟨S100000x256, .f32⟩ : BufTy).Contents (Elt F)),
    unary main_arg2 main_v46 (Host.absf : (⟨S256x128, .f32⟩ : BufTy).Contents (Elt F) → (⟨S256x128, .f32⟩ : BufTy).Contents (Elt F)),
    nullary main_cst_11 (constant S_ .f32 0x00000000#32),
    binary main_v46 main_cst_11 main_v47 ((fun x v => Host.reduceAdd x v reducesTo_S256x128_S128_d0 h_S_) : (⟨S256x128, .f32⟩ : BufTy).Contents (Elt F) → (⟨S_, .f32⟩ : BufTy).Contents (Elt F) → (⟨S128, .f32⟩ : BufTy).Contents (Elt F)),
    unary main_v47 main_v48 (broadcastInDim S1x128 ![1] bcast_S128_S1x128_1 : (⟨S128, .f32⟩ : BufTy).Contents (Elt F) → (⟨S1x128, .f32⟩ : BufTy).Contents (Elt F)),
    nullary main_cst_12 (constant S_ .f32 0x43800000#32),
    unary main_cst_12 main_v49 (broadcastInDim S1x128 ![] bcast_S_S1x128 : (⟨S_, .f32⟩ : BufTy).Contents (Elt F) → (⟨S1x128, .f32⟩ : BufTy).Contents (Elt F)),
    binary main_v48 main_v49 main_v50 (Host.divf : (⟨S1x128, .f32⟩ : BufTy).Contents (Elt F) → (⟨S1x128, .f32⟩ : BufTy).Contents (Elt F) → (⟨S1x128, .f32⟩ : BufTy).Contents (Elt F)),
    unary main_arg2 main_v51 (Host.sign : (⟨S256x128, .f32⟩ : BufTy).Contents (Elt F) → (⟨S256x128, .f32⟩ : BufTy).Contents (Elt F)),
    unary main_v50 main_v52 (broadcastInDim S256x128 ![0, 1] bcast_S1x128_S256x128_0_1 : (⟨S1x128, .f32⟩ : BufTy).Contents (Elt F) → (⟨S256x128, .f32⟩ : BufTy).Contents (Elt F)),
    binary main_v51 main_v52 main_v53 (mulf : (⟨S256x128, .f32⟩ : BufTy).Contents (Elt F) → (⟨S256x128, .f32⟩ : BufTy).Contents (Elt F) → (⟨S256x128, .f32⟩ : BufTy).Contents (Elt F)),
    binary main_v45 main_v53 main_v54 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

/-- from %c_13 up to and including %79 (the second dot_general) -/
abbrev ops1 : List (HloOp τ sig (Elt F)) :=
  [ nullary main_c_13 (constantI S_ 32 0#32),
    unary main_c_13 main_v55 (broadcastInDim S1700000 ![] bcast_S_S1700000 : (⟨S_, .i32⟩ : BufTy).Contents (Elt F) → (⟨S1700000, .i32⟩ : BufTy).Contents (Elt F)),
    binary main_v3 main_v55 main_v56 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v57 (broadcastInDim S1700000 ![] bcast_S_S1700000 : (⟨S_, .i32⟩ : BufTy).Contents (Elt F) → (⟨S1700000, .i32⟩ : BufTy).Contents (Elt F)),
    binary main_v3 main_v57 main_v58 (addi : (⟨S1700000, .i32⟩ : BufTy).Contents (Elt F) → (⟨S1700000, .i32⟩ : BufTy).Contents (Elt F) → (⟨S1700000, .i32⟩ : BufTy).Contents (Elt F)),
    ternary main_v56 main_v58 main_v3 main_v59 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v59 main_v60 (broadcastInDim S1700000x1 ![0] bcast_S1700000_S1700000x1_0 : (⟨S1700000, .i32⟩ : BufTy).Contents (Elt F) → (⟨S1700000x1, .i32⟩ : BufTy).Contents (Elt F)),
    binary main_v54 main_v60 main_v61 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v62 (broadcastInDim S1700000x128 ![0, 1] bcast_S1700000x1_S1700000x128_0_1 : (⟨S1700000x1, .f32⟩ : BufTy).Contents (Elt F) → (⟨S1700000x128, .f32⟩ : BufTy).Contents (Elt F)),
    binary main_v61 main_v62 main_v63 (mulf : (⟨S1700000x128, .f32⟩ : BufTy).Contents (Elt F) → (⟨S1700000x128, .f32⟩ : BufTy).Contents (Elt F) → (⟨S1700000x128, .f32⟩ : BufTy).Contents (Elt F)),
    nullary main_cst_15 (constant S_ .f32 0x00000000#32),
    unary main_cst_15 main_v64 (broadcastInDim S100000x128 ![] bcast_S_S100000x128 : (⟨S_, .f32⟩ : BufTy).Contents (Elt F) → (⟨S100000x128, .f32⟩ : BufTy).Contents (Elt F)),
    unary main_v6 main_v65 (broadcastInDim S1700000x1 ![0] bcast_S1700000_S1700000x1_0 : (⟨S1700000, .i32⟩ : BufTy).Contents (Elt F) → (⟨S1700000x1, .i32⟩ : BufTy).Contents (Elt F)),
    ternary main_v64 main_v65 main_v63 main_v66 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v66 main_v68 main_v69 (addf : (⟨S100000x128, .f32⟩ : BufTy).Contents (Elt F) → (⟨S100000x128, .f32⟩ : BufTy).Contents (Elt F) → (⟨S100000x128, .f32⟩ : BufTy).Contents (Elt F)),
    unary main_v69 main_v70 (Host.sign : (⟨S100000x128, .f32⟩ : BufTy).Contents (Elt F) → (⟨S100000x128, .f32⟩ : BufTy).Contents (Elt F)),
    unary main_arg4 main_v71 (Host.absf : (⟨S128x128, .f32⟩ : BufTy).Contents (Elt F) → (⟨S128x128, .f32⟩ : BufTy).Contents (Elt F)),
    nullary main_cst_16 (constant S_ .f32 0x00000000#32),
    binary main_v71 main_cst_16 main_v72 ((fun x v => Host.reduceAdd x v reducesTo_S128x128_S128_d0 h_S_) : (⟨S128x128, .f32⟩ : BufTy).Contents (Elt F) → (⟨S_, .f32⟩ : BufTy).Contents (Elt F) → (⟨S128, .f32⟩ : BufTy).Contents (Elt F)),
    unary main_v72 main_v73 (broadcastInDim S1x128 ![1] bcast_S128_S1x128_1 : (⟨S128, .f32⟩ : BufTy).Contents (Elt F) → (⟨S1x128, .f32⟩ : BufTy).Contents (Elt F)),
    nullary main_cst_17 (constant S_ .f32 0x43000000#32),
    unary main_cst_17 main_v74 (broadcastInDim S1x128 ![] bcast_S_S1x128 : (⟨S_, .f32⟩ : BufTy).Contents (Elt F) → (⟨S1x128, .f32⟩ : BufTy).Contents (Elt F)),
    binary main_v73 main_v74 main_v75 (Host.divf : (⟨S1x128, .f32⟩ : BufTy).Contents (Elt F) → (⟨S1x128, .f32⟩ : BufTy).Contents (Elt F) → (⟨S1x128, .f32⟩ : BufTy).Contents (Elt F)),
    unary main_arg4 main_v76 (Host.sign : (⟨S128x128, .f32⟩ : BufTy).Contents (Elt F) → (⟨S128x128, .f32⟩ : BufTy).Contents (Elt F)),
    unary main_v75 main_v77 (broadcastInDim S128x128 ![0, 1] bcast_S1x128_S128x128_0_1 : (⟨S1x128, .f32⟩ : BufTy).Contents (Elt F) → (⟨S128x128, .f32⟩ : BufTy).Contents (Elt F)),
    binary main_v76 main_v77 main_v78 (mulf : (⟨S128x128, .f32⟩ : BufTy).Contents (Elt F) → (⟨S128x128, .f32⟩ : BufTy).Contents (Elt F) → (⟨S128x128, .f32⟩ : BufTy).Contents (Elt F)),
    binary main_v70 main_v78 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- from %c_18 up to and including %104 (the third dot_general) -/
abbrev ops2 : List (HloOp τ sig (Elt F)) :=
  [ nullary main_c_18 (constantI S_ 32 0#32),
    unary main_c_18 main_v80 (broadcastInDim S1700000 ![] bcast_S_S1700000 : (⟨S_, .i32⟩ : BufTy).Contents (Elt F) → (⟨S1700000, .i32⟩ : BufTy).Contents (Elt F)),
    binary main_v3 main_v80 main_v81 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v82 (broadcastInDim S1700000 ![] bcast_S_S1700000 : (⟨S_, .i32⟩ : BufTy).Contents (Elt F) → (⟨S1700000, .i32⟩ : BufTy).Contents (Elt F)),
    binary main_v3 main_v82 main_v83 (addi : (⟨S1700000, .i32⟩ : BufTy).Contents (Elt F) → (⟨S1700000, .i32⟩ : BufTy).Contents (Elt F) → (⟨S1700000, .i32⟩ : BufTy).Contents (Elt F)),
    ternary main_v81 main_v83 main_v3 main_v84 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v84 main_v85 (broadcastInDim S1700000x1 ![0] bcast_S1700000_S1700000x1_0 : (⟨S1700000, .i32⟩ : BufTy).Contents (Elt F) → (⟨S1700000x1, .i32⟩ : BufTy).Contents (Elt F)),
    binary main_v79 main_v85 main_v86 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v87 (broadcastInDim S1700000x128 ![0, 1] bcast_S1700000x1_S1700000x128_0_1 : (⟨S1700000x1, .f32⟩ : BufTy).Contents (Elt F) → (⟨S1700000x128, .f32⟩ : BufTy).Contents (Elt F)),
    binary main_v86 main_v87 main_v88 (mulf : (⟨S1700000x128, .f32⟩ : BufTy).Contents (Elt F) → (⟨S1700000x128, .f32⟩ : BufTy).Contents (Elt F) → (⟨S1700000x128, .f32⟩ : BufTy).Contents (Elt F)),
    nullary main_cst_20 (constant S_ .f32 0x00000000#32),
    unary main_cst_20 main_v89 (broadcastInDim S100000x128 ![] bcast_S_S100000x128 : (⟨S_, .f32⟩ : BufTy).Contents (Elt F) → (⟨S100000x128, .f32⟩ : BufTy).Contents (Elt F)),
    unary main_v6 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v91 main_v93 main_v94 (addf : (⟨S100000x128, .f32⟩ : BufTy).Contents (Elt F) → (⟨S100000x128, .f32⟩ : BufTy).Contents (Elt F) → (⟨S100000x128, .f32⟩ : BufTy).Contents (Elt F)),
    unary main_v94 main_v95 (Host.sign : (⟨S100000x128, .f32⟩ : BufTy).Contents (Elt F) → (⟨S100000x128, .f32⟩ : BufTy).Contents (Elt F)),
    unary main_arg6 main_v96 (Host.absf : (⟨S128x40, .f32⟩ : BufTy).Contents (Elt F) → (⟨S128x40, .f32⟩ : BufTy).Contents (Elt F)),
    nullary main_cst_21 (constant S_ .f32 0x00000000#32),
    binary main_v96 main_cst_21 main_v97 ((fun x v => Host.reduceAdd x v reducesTo_S128x40_S40_d0 h_S_) : (⟨S128x40, .f32⟩ : BufTy).Contents (Elt F) → (⟨S_, .f32⟩ : BufTy).Contents (Elt F) → (⟨S40, .f32⟩ : BufTy).Contents (Elt F)),
    unary main_v97 main_v98 (broadcastInDim S1x40 ![1] bcast_S40_S1x40_1 : (⟨S40, .f32⟩ : BufTy).Contents (Elt F) → (⟨S1x40, .f32⟩ : BufTy).Contents (Elt F)),
    nullary main_cst_22 (constant S_ .f32 0x43000000#32),
    unary main_cst_22 main_v99 (broadcastInDim S1x40 ![] bcast_S_S1x40 : (⟨S_, .f32⟩ : BufTy).Contents (Elt F) → (⟨S1x40, .f32⟩ : BufTy).Contents (Elt F)),
    binary main_v98 main_v99 main_v100 (Host.divf : (⟨S1x40, .f32⟩ : BufTy).Contents (Elt F) → (⟨S1x40, .f32⟩ : BufTy).Contents (Elt F) → (⟨S1x40, .f32⟩ : BufTy).Contents (Elt F)),
    unary main_arg6 main_v101 (Host.sign : (⟨S128x40, .f32⟩ : BufTy).Contents (Elt F) → (⟨S128x40, .f32⟩ : BufTy).Contents (Elt F)),
    unary main_v100 main_v102 (broadcastInDim S128x40 ![0, 1] bcast_S1x40_S128x40_0_1 : (⟨S1x40, .f32⟩ : BufTy).Contents (Elt F) → (⟨S128x40, .f32⟩ : BufTy).Contents (Elt F)),
    binary main_v101 main_v102 main_v103 (mulf : (⟨S128x40, .f32⟩ : BufTy).Contents (Elt F) → (⟨S128x40, .f32⟩ : BufTy).Contents (Elt F) → (⟨S128x40, .f32⟩ : BufTy).Contents (Elt F)),
    binary main_v95 main_v103 main_v104 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) ]

/-- from %c_23 to the end, @log_softmax inlined (its last operation writes main_v120) -/
abbrev ops3 : List (HloOp τ sig (Elt F)) :=
  [ nullary main_c_23 (constantI S_ 32 0#32),
    unary main_c_23 main_v105 (broadcastInDim S1700000 ![] bcast_S_S1700000 : (⟨S_, .i32⟩ : BufTy).Contents (Elt F) → (⟨S1700000, .i32⟩ : BufTy).Contents (Elt F)),
    binary main_v3 main_v105 main_v106 (cmpi .slt : (⟨S1700000, .i32⟩ : BufTy).Contents (Elt F) → (⟨S1700000, .i32⟩ : BufTy).Contents (Elt F) → (⟨S1700000, .i1⟩ : BufTy).Contents (Elt F)),
    nullary main_c_24 (constantI S_ 32 100000#32),
    unary main_c_24 main_v107 (broadcastInDim S1700000 ![] bcast_S_S1700000 : (⟨S_, .i32⟩ : BufTy).Contents (Elt F) → (⟨S1700000, .i32⟩ : BufTy).Contents (Elt F)),
    binary main_v3 main_v107 main_v108 (addi : (⟨S1700000, .i32⟩ : BufTy).Contents (Elt F) → (⟨S1700000, .i32⟩ : BufTy).Contents (Elt F) → (⟨S1700000, .i32⟩ : BufTy).Contents (Elt F)),
    ternary main_v106 main_v108 main_v3 main_v109 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v109 main_v110 (broadcastInDim S1700000x1 ![0] bcast_S1700000_S1700000x1_0 : (⟨S1700000, .i32⟩ : BufTy).Contents (Elt F) → (⟨S1700000x1, .i32⟩ : BufTy).Contents (Elt F)),
    binary main_v104 main_v110 main_v111 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v31 main_v112 (broadcastInDim S1700000x40 ![0, 1] bcast_S1700000x1_S1700000x40_0_1 : (⟨S1700000x1, .f32⟩ : BufTy).Contents (Elt F) → (⟨S1700000x40, .f32⟩ : BufTy).Contents (Elt F)),
    binary main_v111 main_v112 main_v113 (mulf : (⟨S1700000x40, .f32⟩ : BufTy).Contents (Elt F) → (⟨S1700000x40, .f32⟩ : BufTy).Contents (Elt F) → (⟨S1700000x40, .f32⟩ : BufTy).Contents (Elt F)),
    nullary main_cst_25 (constant S_ .f32 0x00000000#32),
    unary main_cst_25 main_v114 (broadcastInDim S100000x40 ![] bcast_S_S100000x40 : (⟨S_, .f32⟩ : BufTy).Contents (Elt F) → (⟨S100000x40, .f32⟩ : BufTy).Contents (Elt F)),
    unary main_v6 main_v115 (broadcastInDim S1700000x1 ![0] bcast_S1700000_S1700000x1_0 : (⟨S1700000, .i32⟩ : BufTy).Contents (Elt F) → (⟨S1700000x1, .i32⟩ : BufTy).Contents (Elt F)),
    ternary main_v114 main_v115 main_v113 main_v116 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg7 main_v117 (broadcastInDim S1x40 ![1] bcast_S40_S1x40_1 : (⟨S40, .f32⟩ : BufTy).Contents (Elt F) → (⟨S1x40, .f32⟩ : BufTy).Contents (Elt F)),
    unary main_v117 main_v118 (broadcastInDim S100000x40 ![0, 1] bcast_S1x40_S100000x40_0_1 : (⟨S1x40, .f32⟩ : BufTy).Contents (Elt F) → (⟨S100000x40, .f32⟩ : BufTy).Contents (Elt F)),
    binary main_v116 main_v118 main_v119 (addf : (⟨S100000x40, .f32⟩ : BufTy).Contents (Elt F) → (⟨S100000x40, .f32⟩ : BufTy).Contents (Elt F) → (⟨S100000x40, .f32⟩ : BufTy).Contents (Elt F)),
    TRef.nullary main_call2.cst (constant S_ .f32 0xFF800000#32),
    TRef.binary (.of main_v119 : StableHlo.TRef sig ⟨S100000x40, .f32⟩) main_call2.cst main_call2.v0 (fun x v => Host.reduce FloatOps.maximumf x v reducesTo_S100000x40_S100000_d1 h_S_),
    TRef.nullary main_call2.cst_0 (constant S_ .f32 0xFF800000#32),
    TRef.unary main_call2.cst_0 main_call2.v1 (broadcastInDim S100000 ![] bcast_S_S100000),
    TRef.binary main_call2.v1 main_call2.v0 main_call2.v2 maximumf,
    TRef.unary main_call2.v2 main_call2.v3 (broadcastInDim S100000x1 ![0] bcast_S100000_S100000x1_0),
    TRef.unary main_call2.v3 main_call2.v4 (broadcastInDim S100000x40 ![0, 1] bcast_S100000x1_S100000x40_0_1),
    TRef.binary (.of main_v119 : StableHlo.TRef sig ⟨S100000x40, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S100000x40_S100000_d1 h_S_),
    TRef.unary main_call2.v7 main_call2.v8 (broadcastInDim S100000x1 ![0] bcast_S100000_S100000x1_0),
    TRef.unary main_call2.v8 main_call2.v9 Host.log,
    TRef.unary main_call2.v9 main_call2.v10 (broadcastInDim S100000x40 ![0, 1] bcast_S100000x1_S100000x40_0_1),
    TRef.binary main_call2.v5 main_call2.v10 main_call2.v11 subf ]

/-- @main's operations in order, every call replaced by its callee's operations over that call's buffers. -/
abbrev ops : List (HloOp τ sig (Elt F)) := ops0 ++ (ops1 ++ (ops2 ++ ops3))

/-- @main is that straight line: with the callees' definitions unfolded at their calls and the records at their
    fields, both sides reduce to one chain of `hlo` steps (sequencing reassociated by computation), so the equation
    holds by reflexivity, checked by the kernel. -/
theorem main_eq (c : Dev nD) : main (F := F) c = seq ops := by
  chain_rfl

/-- The signature scopes no TensorCore buffer. -/
theorem scopedRefs_eq : (Finset.univ.filter fun b : Ref sig .tc => b.isScoped) = ∅ := by decide
/-- The signature scopes no semaphore on the TensorCore. -/
theorem scopedSems_eq : (Finset.univ.filter fun sm : SemLoc sig => sm.isScoped .tc) = ∅ := by decide

/-- Every operation of `ops0` touches TensorCore references only. -/
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., nullary_bufs_sub ..,
    binary_bufs_sub .., unary_bufs_sub .., nullary_bufs_sub .., unary_bufs_sub .., binary_bufs_sub .., unary_bufs_sub ..,
    unary_bufs_sub .., binary_bufs_sub .., binary_bufs_sub ..⟩

/-- Every operation of `ops1` touches TensorCore references only. -/
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., nullary_bufs_sub .., binary_bufs_sub .., unary_bufs_sub .., nullary_bufs_sub ..,
    unary_bufs_sub .., binary_bufs_sub .., unary_bufs_sub .., unary_bufs_sub .., binary_bufs_sub .., binary_bufs_sub ..⟩

/-- Every operation of `ops2` touches TensorCore references only. -/
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., nullary_bufs_sub .., binary_bufs_sub .., unary_bufs_sub .., nullary_bufs_sub ..,
    unary_bufs_sub .., binary_bufs_sub .., unary_bufs_sub .., unary_bufs_sub .., binary_bufs_sub .., binary_bufs_sub ..⟩

/-- Every operation of `ops3` touches TensorCore references only. -/
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

/-- Every operation of @main touches TensorCore references only: the four stretches' facts, joined. -/
theorem ops_sub : (ops : List (HloOp τ sig (Elt F))).Forall fun op => op.bufs ⊆ tcRefs τ sig :=
  List.forall_append.2 ⟨ops0_sub, List.forall_append.2 ⟨ops1_sub, List.forall_append.2 ⟨ops2_sub, ops3_sub⟩⟩⟩

/-- On every device, for any float values, from any memory with zero counters: every weakly fair execution of @main
    on the TensorCores terminates, and every final state has each TensorCore buffer at the fold of the operations'
    results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The contents after two stretches run one after the other: the second's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after @main: the four stretches' folds, composed in order. -/
theorem after_ops (V : Valuation τ sig (Elt F)) :
    after ops V = after ops3 (after ops2 (after ops1 (after ops0 V))) :=
  (after_app ops0 (ops1 ++ (ops2 ++ ops3)) V).trans
    ((after_app ops1 (ops2 ++ ops3) (after ops0 V)).trans (after_app ops2 ops3 (after ops1 (after ops0 V))))

end Cert.ReferenceIdeal.RefRun

end
-- ==== Proof.RefStage.lean ====
import proofs.«172713_j53051436040761_1_alg».proof.Proof.RefRun
import Idealize.ShloMosaic.PureOps.Ideal
import Idealize.ShloMosaic.PureOps.Dims

noncomputable section

namespace Cert.ReferenceIdeal.RefStage

open Cert.ReferenceIdeal Cert.ReferenceIdeal.Gen Cert.ReferenceIdeal.RefRun Idealize.ShloMosaic Idealize.ShloMosaic.TcCoe Idealize.SL.Sem Idealize.ShloMosaic.StableHlo

variable (m' : (ℓ : Loc nD τ sig) → Buf (Elt Ideal) ℓ) (c : Dev nD)

/-- The buffer contents after the first stretch of the reference (through the first dot_general), from the launch
    contents. -/
def R1 : Valuation τ sig (Elt Ideal) := after (ops0 (F := Ideal)) (launchContents m' c)
/-- The buffer contents after the second stretch (through the second dot_general). -/
def R2 : Valuation τ sig (Elt Ideal) := after (ops1 (F := Ideal)) (R1 m' c)
/-- The buffer contents after the third stretch (through the third dot_general). -/
def R3 : Valuation τ sig (Elt Ideal) := after (ops2 (F := Ideal)) (R2 m' c)
/-- The buffer contents after the last stretch: the contents after the whole reference. -/
def R4 : Valuation τ sig (Elt Ideal) := after (ops3 (F := Ideal)) (R3 m' c)

/-- The contents after @main's whole line are the four stretches' folds composed. -/
theorem R4_eq : after (ops (F := Ideal)) (launchContents m' c) = R4 m' c :=
  after_ops (launchContents m' c)

set_option maxHeartbeats 4000000 in
/-- The first product: the sign of the normalized input, contracted with the scaled sign of the first weight. Both
    sides are folds of the same literal line of operations; evaluated at their buffers they are the same term. -/
theorem R1_v54 : R1 m' c (Proc.devRef .tc main_v54) = Host.dotGeneral (F := Ideal) (φ₁ := .f32) (φ₂ := .f32) dot_S100000x256_S256x128_S100000x128_1_0_0_1_n_n none (Host.sign (F := Ideal) (φ := .f32) (R1 m' c (Proc.devRef .tc main_v44))) (R1 m' c (Proc.devRef .tc main_v53)) := by
  unfold R1
  after_results_simp

set_option maxHeartbeats 4000000 in
/-- The normalized input: the input less its column mean, times the reciprocal root of the column variance plus epsilon,
    each broadcast along the rows. -/
theorem R1_v44 : R1 m' c (Proc.devRef .tc main_v44) = mulf (F := Ideal) (φ := .f32) (subf (R1 m' c (Proc.devRef .tc main_arg0)) (broadcastInDim S100000x256 ![0, 1] bcast_S1x256_S100000x256_0_1 (broadcastInDim S1x256 ![1] bcast_S256_S1x256_1 (R1 m' c (Proc.devRef .tc main_v34))))) (broadcastInDim S100000x256 ![0, 1] bcast_S1x256_S100000x256_0_1 (broadcastInDim S1x256 ![1] bcast_S256_S1x256_1 (R1 m' c (Proc.devRef .tc main_v41)))) := by
  unfold R1
  after_results_simp

set_option maxHeartbeats 4000000 in
/-- The second product: the sign of the first layer's output, contracted with the scaled sign of the second weight. -/
theorem R2_v79 : R2 m' c (Proc.devRef .tc main_v79) = Host.dotGeneral (F := Ideal) (φ₁ := .f32) (φ₂ := .f32) dot_S100000x128_S128x128_S100000x128_1_0_0_1_n_n none (Host.sign (F := Ideal) (φ := .f32) (R2 m' c (Proc.devRef .tc main_v69))) (R2 m' c (Proc.devRef .tc main_v78)) := by
  unfold R2
  after_results_simp

set_option maxHeartbeats 4000000 in
/-- The third product: the sign of the second layer's output, contracted with the scaled sign of the third weight. -/
theorem R3_v104 : R3 m' c (Proc.devRef .tc main_v104) = Host.dotGeneral (F := Ideal) (φ₁ := .f32) (φ₂ := .f32) dot_S100000x128_S128x40_S100000x40_1_0_0_1_n_n none (Host.sign (F := Ideal) (φ := .f32) (R3 m' c (Proc.devRef .tc main_v94))) (R3 m' c (Proc.devRef .tc main_v103)) := by
  unfold R3
  after_results_simp

set_option maxHeartbeats 4000000 in
/-- The edge weight as a column: the product of the two gathered degree factors, broadcast to one column. -/
theorem R1_v31 : R1 m' c (Proc.devRef .tc main_v31) = broadcastInDim S1700000x1 ![0] bcast_S1700000_S1700000x1_0 (R1 m' c (Proc.devRef .tc main_v30)) := by
  unfold R1
  after_results_simp

set_option maxHeartbeats 4000000 in
/-- The second stretch writes neither buffer, so the same holds after it. -/
theorem R2_v31 : R2 m' c (Proc.devRef .tc main_v31) = broadcastInDim S1700000x1 ![0] bcast_S1700000_S1700000x1_0 (R2 m' c (Proc.devRef .tc main_v30)) := by
  unfold R2
  after_results_simp
  exact R1_v31 m' c

set_option maxHeartbeats 4000000 in
/-- Nor does the third stretch. -/
theorem R3_v31 : R3 m' c (Proc.devRef .tc main_v31) = broadcastInDim S1700000x1 ![0] bcast_S1700000_S1700000x1_0 (R3 m' c (Proc.devRef .tc main_v30)) := by
  unfold R3
  after_results_simp
  exact R2_v31 m' c

set_option maxHeartbeats 4000000 in
/-- No operation of the reference writes an argument: after the whole line each of the eight argument buffers holds
    what it held at launch. Each fold walks back through the four stretches, no operation's result buffer being the
    argument's. -/
theorem args_kept :
    after (ops (F := Ideal)) (launchContents m' c) (Proc.devRef .tc main_arg0) = m' ((c.tc : Thread nD τ).loc main_arg0)
    ∧ after (ops (F := Ideal)) (launchContents m' c) (Proc.devRef .tc main_arg1) = m' ((c.tc : Thread nD τ).loc main_arg1)
    ∧ after (ops (F := Ideal)) (launchContents m' c) (Proc.devRef .tc main_arg2) = m' ((c.tc : Thread nD τ).loc main_arg2)
    ∧ after (ops (F := Ideal)) (launchContents m' c) (Proc.devRef .tc main_arg3) = m' ((c.tc : Thread nD τ).loc main_arg3)
    ∧ after (ops (F := Ideal)) (launchContents m' c) (Proc.devRef .tc main_arg4) = m' ((c.tc : Thread nD τ).loc main_arg4)
    ∧ after (ops (F := Ideal)) (launchContents m' c) (Proc.devRef .tc main_arg5) = m' ((c.tc : Thread nD τ).loc main_arg5)
    ∧ after (ops (F := Ideal)) (launchContents m' c) (Proc.devRef .tc main_arg6) = m' ((c.tc : Thread nD τ).loc main_arg6)
    ∧ after (ops (F := Ideal)) (launchContents m' c) (Proc.devRef .tc main_arg7) = m' ((c.tc : Thread nD τ).loc main_arg7) := by
  rw [after_ops]
  refine ⟨?_, ?_, ?_, ?_, ?_, ?_, ?_, ?_⟩ <;> (after_results_simp <;> rfl)

/-- The first product's dimension numbers are those of a plain matrix product, 100000×256 by 256×128. -/
theorem dot0_plain : dot_S100000x256_S256x128_S100000x128_1_0_0_1_n_n = DotDims.plain 100000 256 128 := rfl
/-- The second's: 100000×128 by 128×128. -/
theorem dot1_plain : dot_S100000x128_S128x128_S100000x128_1_0_0_1_n_n = DotDims.plain 100000 128 128 := rfl
/-- The third's: 100000×128 by 128×40. -/
theorem dot2_plain : dot_S100000x128_S128x40_S100000x40_1_0_0_1_n_n = DotDims.plain 100000 128 40 := rfl

end Cert.ReferenceIdeal.RefStage

end
-- ==== Proof.BridgeA.lean ====
/-
  The two programs' host arithmetic, compared at the boundaries of the three regions.

  The idealized kernel program's buffer contents at its segment boundaries are the folds `W5` (region 0's entry), `W6` (its
  exit), `W7`/`W8`, `W9`/`W10`; the reference's contents after its four stretches are `R1 … R4`. This module shows that what
  the later stretches READ from an earlier boundary is the same array on both sides, whenever the two launch memories
  hold the same eight arguments (`Agree`): the edge lists with self loops (source and destination), the symmetric
  normalization D^{-1/2}(A+I)D^{-1/2} per edge, the bias vectors, the batch statistics (column means and inverse deviations
  of x) and the three binarized weight matrices sign(W)·mean|W| (which the kernel additionally rounds to bfloat16 — the
  identity on the extended reals). Every equation is between the same host operations applied to the same arguments:
  each side's fold is read back operation by operation and the two terms coincide.
-/
import proofs.«172713_j53051436040761_1_alg».proof.Proof.Gen.KernelIdeal.Frame
import proofs.«172713_j53051436040761_1_alg».proof.Proof.RefStage
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal.Gen (W0 W1 W2 W3 W4 W5 W6 W7 W8 W9 W10 W11 W12 V5 V7 V9 W6_of_ne W8_of_ne W10_of_ne W6_arr W8_arr W10_arr)
open Cert.ReferenceIdeal.RefStage (R1 R2 R3 R4)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The two launch memories hold the same eight argument arrays on core `c`. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-! ## A buffer that is not one of a region's arrays keeps its contents across the region -/

theorem W6_ne (b : Ref Cert.KernelIdeal.sig .tc) (hb : ∀ w, Pipeline.arrRef Cert.KernelIdeal.spec0 w ≠ b) :
    W6 (F := Ideal) m ρ c (no_index (Proc.devRef .tc b)) = W5 (F := Ideal) m ρ c (Proc.devRef .tc b) := W6_of_ne m ρ c b hb
theorem W8_ne (b : Ref Cert.KernelIdeal.sig .tc) (hb : ∀ w, Pipeline.arrRef Cert.KernelIdeal.spec1 w ≠ b) :
    W8 (F := Ideal) m ρ c (no_index (Proc.devRef .tc b)) = W7 (F := Ideal) m ρ c (Proc.devRef .tc b) := W8_of_ne m ρ c b hb
theorem W10_ne (b : Ref Cert.KernelIdeal.sig .tc) (hb : ∀ w, Pipeline.arrRef Cert.KernelIdeal.spec2 w ≠ b) :
    W10 (F := Ideal) m ρ c (no_index (Proc.devRef .tc b)) = W9 (F := Ideal) m ρ c (Proc.devRef .tc b) := W10_of_ne m ρ c b hb

/-! ## The launch contents at the argument buffers -/

theorem KB0 : W0 (F := Ideal) m ρ c (Proc.devRef .tc Cert.KernelIdeal.main_arg0) = m ((c.tc : Thread Cert.KernelIdeal.nD Cert.KernelIdeal.τ).loc Cert.KernelIdeal.main_arg0) := rfl
theorem KB1 : W0 (F := Ideal) m ρ c (Proc.devRef .tc Cert.KernelIdeal.main_arg1) = m ((c.tc : Thread Cert.KernelIdeal.nD Cert.KernelIdeal.τ).loc Cert.KernelIdeal.main_arg1) := rfl
theorem KB2 : W0 (F := Ideal) m ρ c (Proc.devRef .tc Cert.KernelIdeal.main_arg2) = m ((c.tc : Thread Cert.KernelIdeal.nD Cert.KernelIdeal.τ).loc Cert.KernelIdeal.main_arg2) := rfl
theorem KB3 : W0 (F := Ideal) m ρ c (Proc.devRef .tc Cert.KernelIdeal.main_arg3) = m ((c.tc : Thread Cert.KernelIdeal.nD Cert.KernelIdeal.τ).loc Cert.KernelIdeal.main_arg3) := rfl
theorem KB4 : W0 (F := Ideal) m ρ c (Proc.devRef .tc Cert.KernelIdeal.main_arg4) = m ((c.tc : Thread Cert.KernelIdeal.nD Cert.KernelIdeal.τ).loc Cert.KernelIdeal.main_arg4) := rfl
theorem KB5 : W0 (F := Ideal) m ρ c (Proc.devRef .tc Cert.KernelIdeal.main_arg5) = m ((c.tc : Thread Cert.KernelIdeal.nD Cert.KernelIdeal.τ).loc Cert.KernelIdeal.main_arg5) := rfl
theorem KB6 : W0 (F := Ideal) m ρ c (Proc.devRef .tc Cert.KernelIdeal.main_arg6) = m ((c.tc : Thread Cert.KernelIdeal.nD Cert.KernelIdeal.τ).loc Cert.KernelIdeal.main_arg6) := rfl
theorem KB7 : W0 (F := Ideal) m ρ c (Proc.devRef .tc Cert.KernelIdeal.main_arg7) = m ((c.tc : Thread Cert.KernelIdeal.nD Cert.KernelIdeal.τ).loc Cert.KernelIdeal.main_arg7) := rfl
theorem RB0 : launchContents m' c (Proc.devRef .tc Cert.ReferenceIdeal.main_arg0) = m' ((c.tc : Thread Cert.ReferenceIdeal.nD Cert.ReferenceIdeal.τ).loc Cert.ReferenceIdeal.main_arg0) := rfl
theorem RB1 : launchContents m' c (Proc.devRef .tc Cert.ReferenceIdeal.main_arg1) = m' ((c.tc : Thread Cert.ReferenceIdeal.nD Cert.ReferenceIdeal.τ).loc Cert.ReferenceIdeal.main_arg1) := rfl
theorem RB2 : launchContents m' c (Proc.devRef .tc Cert.ReferenceIdeal.main_arg2) = m' ((c.tc : Thread Cert.ReferenceIdeal.nD Cert.ReferenceIdeal.τ).loc Cert.ReferenceIdeal.main_arg2) := rfl
theorem RB3 : launchContents m' c (Proc.devRef .tc Cert.ReferenceIdeal.main_arg3) = m' ((c.tc : Thread Cert.ReferenceIdeal.nD Cert.ReferenceIdeal.τ).loc Cert.ReferenceIdeal.main_arg3) := rfl
theorem RB4 : launchContents m' c (Proc.devRef .tc Cert.ReferenceIdeal.main_arg4) = m' ((c.tc : Thread Cert.ReferenceIdeal.nD Cert.ReferenceIdeal.τ).loc Cert.ReferenceIdeal.main_arg4) := rfl
theorem RB5 : launchContents m' c (Proc.devRef .tc Cert.ReferenceIdeal.main_arg5) = m' ((c.tc : Thread Cert.ReferenceIdeal.nD Cert.ReferenceIdeal.τ).loc Cert.ReferenceIdeal.main_arg5) := rfl
theorem RB6 : launchContents m' c (Proc.devRef .tc Cert.ReferenceIdeal.main_arg6) = m' ((c.tc : Thread Cert.ReferenceIdeal.nD Cert.ReferenceIdeal.τ).loc Cert.ReferenceIdeal.main_arg6) := rfl
theorem RB7 : launchContents m' c (Proc.devRef .tc Cert.ReferenceIdeal.main_arg7) = m' ((c.tc : Thread Cert.ReferenceIdeal.nD Cert.ReferenceIdeal.τ).loc Cert.ReferenceIdeal.main_arg7) := rfl

/-! ## What region 0 and the first stretch read -/

set_option maxHeartbeats 8000000 in
/-- The node features x. -/
theorem A0_5 (hag : Agree m m' c) : W5 (F := Ideal) m ρ c (Proc.devRef .tc Cert.KernelIdeal.main_arg0) = R1 m' c (Proc.devRef .tc Cert.ReferenceIdeal.main_arg0) := by
  unfold R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

set_option maxHeartbeats 8000000 in
/-- The column means of x. -/
theorem Mu_5 (hag : Agree m m' c) : W5 (F := Ideal) m ρ c (Proc.devRef .tc Cert.KernelIdeal.main_v33) = R1 m' c (Proc.devRef .tc Cert.ReferenceIdeal.main_v34) := by
  unfold R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

set_option maxHeartbeats 8000000 in
/-- The inverse deviations 1/sqrt(var + ε) of x's columns. -/
theorem Inv_5 (hag : Agree m m' c) : W5 (F := Ideal) m ρ c (Proc.devRef .tc Cert.KernelIdeal.main_v37) = R1 m' c (Proc.devRef .tc Cert.ReferenceIdeal.main_v41) := by
  unfold R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

set_option maxHeartbeats 8000000 in
/-- The first binarized weight matrix; the kernel's copy is rounded to bfloat16, the identity here. -/
theorem Wt0 (hag : Agree m m' c) : W5 (F := Ideal) m ρ c (Proc.devRef .tc Cert.KernelIdeal.main_v46) = R1 m' c (Proc.devRef .tc Cert.ReferenceIdeal.main_v53) := by
  unfold R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

/-! ## What the second stretch reads at region 0's exit -/

set_option maxHeartbeats 8000000 in
/-- The edge sources with the self loops appended. -/
theorem C3_6 (hag : Agree m m' c) : W6 (F := Ideal) m ρ c (Proc.devRef .tc Cert.KernelIdeal.main_v3) = R1 m' c (Proc.devRef .tc Cert.ReferenceIdeal.main_v3) := by
  unfold R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

set_option maxHeartbeats 8000000 in
/-- The edge destinations with the self loops appended. -/
theorem C6_6 (hag : Agree m m' c) : W6 (F := Ideal) m ρ c (Proc.devRef .tc Cert.KernelIdeal.main_v6) = R1 m' c (Proc.devRef .tc Cert.ReferenceIdeal.main_v6) := by
  unfold R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

set_option maxHeartbeats 8000000 in
/-- The per-edge normalization dinv[src]·dinv[dst]. -/
theorem C30_6 (hag : Agree m m' c) : W6 (F := Ideal) m ρ c (Proc.devRef .tc Cert.KernelIdeal.main_v30) = R1 m' c (Proc.devRef .tc Cert.ReferenceIdeal.main_v30) := by
  unfold R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

set_option maxHeartbeats 8000000 in
/-- The first bias vector. -/
theorem A3_6 (hag : Agree m m' c) : W6 (F := Ideal) m ρ c (Proc.devRef .tc Cert.KernelIdeal.main_arg3) = R1 m' c (Proc.devRef .tc Cert.ReferenceIdeal.main_arg3) := by
  unfold R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

end Cert.Bridge

end
-- ==== Proof.BridgeB8.lean ====
/-
  The same comparison at region 1's exit (the kernel's `W8`, the reference's `R2`) and for what region 1 itself reads:
  the edge lists, the per-edge normalization and the second bias vector are unchanged by everything before, and the second
  binarized weight matrix (rounded to bfloat16 in the kernel, the identity on the extended reals) is the same function of W1.
-/
import proofs.«172713_j53051436040761_1_alg».proof.Proof.BridgeA

set_option maxRecDepth 16384

noncomputable section

namespace Cert.Bridge

open Idealize.ShloMosaic Idealize.ShloMosaic.TcCoe Idealize.SL.Sem Idealize.ShloMosaic.StableHlo
open Cert.KernelIdeal.Gen (W0 W1 W2 W3 W4 W5 W6 W7 W8 W9 W10 W11 W12 V5 V7 V9 W6_of_ne W8_of_ne W10_of_ne W6_arr W8_arr W10_arr)
open Cert.ReferenceIdeal.RefStage (R1 R2 R3 R4)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

set_option maxHeartbeats 8000000 in
/-- The second binarized weight matrix, as region 1 finds it. -/
theorem Wt1 (hag : Agree m m' c) : W7 (F := Ideal) m ρ c (Proc.devRef .tc Cert.KernelIdeal.main_v55) = R2 m' c (Proc.devRef .tc Cert.ReferenceIdeal.main_v78) := by
  unfold R2 R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

set_option maxHeartbeats 8000000 in
/-- The edge sources. -/
theorem C3_8 (hag : Agree m m' c) : W8 (F := Ideal) m ρ c (Proc.devRef .tc Cert.KernelIdeal.main_v3) = R2 m' c (Proc.devRef .tc Cert.ReferenceIdeal.main_v3) := by
  unfold R2 R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

set_option maxHeartbeats 8000000 in
/-- The edge destinations. -/
theorem C6_8 (hag : Agree m m' c) : W8 (F := Ideal) m ρ c (Proc.devRef .tc Cert.KernelIdeal.main_v6) = R2 m' c (Proc.devRef .tc Cert.ReferenceIdeal.main_v6) := by
  unfold R2 R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

set_option maxHeartbeats 8000000 in
/-- The per-edge normalization. -/
theorem C30_8 (hag : Agree m m' c) : W8 (F := Ideal) m ρ c (Proc.devRef .tc Cert.KernelIdeal.main_v30) = R2 m' c (Proc.devRef .tc Cert.ReferenceIdeal.main_v30) := by
  unfold R2 R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

set_option maxHeartbeats 8000000 in
/-- The second bias vector. -/
theorem A5_8 (hag : Agree m m' c) : W8 (F := Ideal) m ρ c (Proc.devRef .tc Cert.KernelIdeal.main_arg5) = R2 m' c (Proc.devRef .tc Cert.ReferenceIdeal.main_arg5) := by
  unfold R2 R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

end Cert.Bridge

end
-- ==== Proof.BridgeB10.lean ====
/-
  The same comparison at region 2's exit (the kernel's `W10`, the reference's `R3`) and for what region 2 itself reads:
  the edge lists, the per-edge normalization, the third bias vector and the third binarized weight matrix.
-/
import proofs.«172713_j53051436040761_1_alg».proof.Proof.BridgeA

set_option maxRecDepth 16384

noncomputable section

namespace Cert.Bridge

open Idealize.ShloMosaic Idealize.ShloMosaic.TcCoe Idealize.SL.Sem Idealize.ShloMosaic.StableHlo
open Cert.KernelIdeal.Gen (W0 W1 W2 W3 W4 W5 W6 W7 W8 W9 W10 W11 W12 V5 V7 V9 W6_of_ne W8_of_ne W10_of_ne W6_arr W8_arr W10_arr)
open Cert.ReferenceIdeal.RefStage (R1 R2 R3 R4)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

set_option maxHeartbeats 8000000 in
/-- The third binarized weight matrix, as region 2 finds it. -/
theorem Wt2 (hag : Agree m m' c) : W9 (F := Ideal) m ρ c (Proc.devRef .tc Cert.KernelIdeal.main_v64) = R3 m' c (Proc.devRef .tc Cert.ReferenceIdeal.main_v103) := by
  unfold R3 R2 R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

set_option maxHeartbeats 8000000 in
/-- The edge sources. -/
theorem C3_10 (hag : Agree m m' c) : W10 (F := Ideal) m ρ c (Proc.devRef .tc Cert.KernelIdeal.main_v3) = R3 m' c (Proc.devRef .tc Cert.ReferenceIdeal.main_v3) := by
  unfold R3 R2 R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

set_option maxHeartbeats 8000000 in
/-- The edge destinations. -/
theorem C6_10 (hag : Agree m m' c) : W10 (F := Ideal) m ρ c (Proc.devRef .tc Cert.KernelIdeal.main_v6) = R3 m' c (Proc.devRef .tc Cert.ReferenceIdeal.main_v6) := by
  unfold R3 R2 R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

set_option maxHeartbeats 8000000 in
/-- The per-edge normalization. -/
theorem C30_10 (hag : Agree m m' c) : W10 (F := Ideal) m ρ c (Proc.devRef .tc Cert.KernelIdeal.main_v30) = R3 m' c (Proc.devRef .tc Cert.ReferenceIdeal.main_v30) := by
  unfold R3 R2 R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

set_option maxHeartbeats 8000000 in
/-- The third bias vector. -/
theorem A7_10 (hag : Agree m m' c) : W10 (F := Ideal) m ρ c (Proc.devRef .tc Cert.KernelIdeal.main_arg7) = R3 m' c (Proc.devRef .tc Cert.ReferenceIdeal.main_arg7) := by
  unfold R3 R2 R1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', W6_ne, W8_ne, W10_ne]
  repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
  repeat (first
      | rw [KB0] | rw [KB1] | rw [KB2] | rw [KB3] | rw [KB4] | rw [KB5] | rw [KB6] | rw [KB7]
      | rw [RB0] | rw [RB1] | rw [RB2] | rw [RB3] | rw [RB4] | rw [RB5] | rw [RB6] | rw [RB7])
  repeat (first
      | rw [hag.a0] | rw [hag.a1] | rw [hag.a2] | rw [hag.a3] | rw [hag.a4] | rw [hag.a5] | rw [hag.a6] | rw [hag.a7])
  all_goals rfl

end Cert.Bridge

end
-- ==== Proof.Spec.lean ====
/-
  The two functions the kernel regions and the reference's matrix products are both read as, on the extended reals.

  `signDot X W` is the binarized linear layer: entry (r, c) is the sum over k of sign(X[r, k]) · W[k, c], with
  `Ideal.sign` the order sign (−1 below zero, 0 at zero, 1 above; the infinities −1 and 1).
  `bn X MU INV` is the batch normalization with the column statistics given as rows: (X[r, k] − MU[0, k]) · INV[0, k].
-/
import Idealize.ShloMosaic.PureOps.Ideal
import Idealize.ShloMosaic.Lib.ValueIdx

noncomputable section

open scoped BigOperators

namespace Cert.Spec

open Idealize.ShloMosaic Idealize.ShloMosaic.ValueIdx

/-- Entry (r, c) of sign(X) · W: the sum over the contracted axis of the sign of X's entry times W's entry. -/
def signDot {A K C : Nat} (X : (⟨2, ![A, K]⟩ : Shape).Idx → EReal) (W : (⟨2, ![K, C]⟩ : Shape).Idx → EReal) :
    (⟨2, ![A, C]⟩ : Shape).Idx → EReal :=
  fun i => ∑ k : Fin K, Ideal.sign (X (ix2 (show Fin A from i 0) k)) * W (ix2 k (show Fin C from i 1))

/-- Entry (r, k) of the normalized array: X's entry minus column k's mean, times column k's inverse deviation. -/
def bn {A K : Nat} (X : (⟨2, ![A, K]⟩ : Shape).Idx → EReal) (MU INV : (⟨2, ![1, K]⟩ : Shape).Idx → EReal) :
    (⟨2, ![A, K]⟩ : Shape).Idx → EReal :=
  fun i => (X i - MU (ix2 (0 : Fin 1) (show Fin K from i 1))) * INV (ix2 (0 : Fin 1) (show Fin K from i 1))

theorem signDot_apply {A K C : Nat} (X : (⟨2, ![A, K]⟩ : Shape).Idx → EReal) (W : (⟨2, ![K, C]⟩ : Shape).Idx → EReal)
    (r : Fin A) (c : Fin C) :
    signDot X W (ix2 r c) = ∑ k : Fin K, Ideal.sign (X (ix2 r k)) * W (ix2 k c) := rfl

theorem bn_apply {A K : Nat} (X : (⟨2, ![A, K]⟩ : Shape).Idx → EReal) (MU INV : (⟨2, ![1, K]⟩ : Shape).Idx → EReal)
    (r : Fin A) (k : Fin K) :
    bn X MU INV (ix2 r k) = (X (ix2 r k) - MU (ix2 (0 : Fin 1) k)) * INV (ix2 (0 : Fin 1) k) := rfl

end Cert.Spec

end
-- ==== Proof.LibSignMatmul.lean ====
/-
  The arithmetic of one block of a binarized linear layer, at the ideal values, read one entry at a time.

  A block computes sign(x) · w: the sign of every entry of an m × k block of 32-bit floats (the selection
  "1.0 carrying x's sign bit where |x| > 0, else x" a float sign lowers to), narrowed to sixteen bits, then one
  matrix product with a k × n block into a zero accumulator. On the extended reals the narrowing is the identity,
  the selection is the order sign, and the product into zero is the plain sum over the contracted axis: entry (p, q) of
  the block's result is the sum over c of sign(x[p, c]) · w[c, q].
-/
import Idealize.ShloMosaic.PureOps.Ideal.Laws
import Idealize.ShloMosaic.Lib.ValueIdx
import Idealize.ShloMosaic.Lib.Pipeline.Value

noncomputable section

open scoped BigOperators

namespace Cert.LibSignMatmul

open Idealize.ShloMosaic Idealize.ShloMosaic.ValueIdx

/-- A matrix product of an m × k by a k × n block (the second axis of the left operand contracted with the first of the
    right one, no batch axis) into the zero accumulator, read at entry (a, b): the sum over the contracted coordinate of
    the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The lowered float sign of a block — 1.0 with the entry's sign bit where the entry's absolute value is above zero,
    the entry itself elsewhere —, narrowed to sixteen bits, read at one entry: the order sign of the entry. -/
theorem sign_trunc_apply {s : Shape} (x : FVec Ideal s .f32) (h : FTy.bits .bf16 < FTy.bits .f32) (i : s.Idx) :
    (truncf .bf16
        (select (cmpf .ogt (absf x) (broadcast s (Scalar.ofBits .f32 0x00000000#32)))
          (select (cmpf .olt x (constant s .f32 0x00000000#32)) (constant s .f32 0xBF800000#32)
            (constant s .f32 0x3F800000#32)) x) h : FVec Ideal s .bf16) i
      = Ideal.sign (x i) :=
  Ideal.jnp_sign_eq_sign_f32 (x i)

/-- ONE BLOCK of the binarized layer at entry (a, b): the sum over c of sign(x[a, c]) · w[c, b]. -/
theorem sign_matmul_apply {m k n : Nat}
    (wf : DotDims.WF ⟨2, ![m, k]⟩ ⟨2, ![k, n]⟩ ⟨2, ![m, n]⟩ [1] [0] [0] [1] [] [])
    (prec : Option ContractPrecision) (x : FVec Ideal ⟨2, ![m, k]⟩ .f32) (w : FVec Ideal ⟨2, ![k, n]⟩ .bf16)
    (h : FTy.bits .bf16 < FTy.bits .f32) (a : Fin m) (b : Fin n) :
    FloatOps.matmul (⟨[1], [0], [0], [1], [], [], wf⟩ : DotDims _ _ _) prec
        (truncf .bf16
          (select (cmpf .ogt (absf x) (broadcast ⟨2, ![m, k]⟩ (Scalar.ofBits .f32 0x00000000#32)))
            (select (cmpf .olt x (constant ⟨2, ![m, k]⟩ .f32 0x00000000#32)) (constant ⟨2, ![m, k]⟩ .f32 0xBF800000#32)
              (constant ⟨2, ![m, k]⟩ .f32 0x3F800000#32)) x) h : FVec Ideal ⟨2, ![m, k]⟩ .bf16)
        w (constant ⟨2, ![m, n]⟩ .f32 0x00000000#32) (ix2 a b)
      = ∑ c : Fin k, Ideal.sign (x (ix2 a c)) * w (ix2 c b) := by
  rw [matmul_zero_apply]
  exact Finset.sum_congr rfl fun c _ => by rw [sign_trunc_apply]

end Cert.LibSignMatmul

end
-- ==== Proof.Region0.lean ====
/-
  REGION 0: batch normalization, then the binarized linear layer, over the 100000 × 256 input, 2000 rows at a time.

  Point t of the 50 loads rows 2000 t … 2000 t + 1999 of the input, the whole 1 × 256 rows of column means and of
  inverse deviations, and the whole 256 × 128 weight; it normalizes the block column by column — (x − mean) · inverse
  deviation —, takes the sign, and stores sign(normalized block) · weight as rows 2000 t … 2000 t + 1999 of the output.
  Entry (r, c) of the output therefore depends on row r of the input, the two statistics rows and column c of the weight
  alone, every row lies in exactly one point's block, and after the 50 points the output array is
  sign(normalized input) · weight, whatever the five arrays held when the region was entered.
-/
import proofs.«172713_j53051436040761_1_alg».proof.Proof.Gen.KernelIdeal.Frame
import proofs.«172713_j53051436040761_1_alg».proof.Proof.Spec
import proofs.«172713_j53051436040761_1_alg».proof.Proof.LibSignMatmul
import Idealize.ShloMosaic.Lib.ValueLayout

set_option maxRecDepth 16384

noncomputable section

open scoped BigOperators

namespace Cert.KernelIdeal.RegionValue

open Idealize.ShloMosaic Idealize.ShloMosaic.TcCoe Idealize.ShloMosaic.ValueIdx
open Idealize.ShloMosaic.Pipeline (Dat Cfg Window)

/-- The two zero offsets of a whole-block access, however they are spelt. -/
theorem hz0 : (![0, 0] : Fin 2 → Nat) = fun _ => 0 := funext fun a => by fin_cases a <;> rfl

/-- Entry (p, q) of what the body computes from its four loaded blocks: the sum over k of
    sign((x[p, k] − mean[0, k]) · inverse deviation[0, k]) · w[k, q]. -/
theorem pay0_apply (x0 : Vec Ideal S2000x256 .f32) (mu inv : Vec Ideal S1x256 .f32) (w : Vec Ideal S256x128 .bf16)
    (p : Fin 2000) (q : Fin 128) :
    Gen.k0_pay1 x0 mu inv w (ix2 p q)
      = ∑ k : Fin 256, Ideal.sign ((x0 (ix2 p k) - mu (ix2 (0 : Fin 1) k)) * inv (ix2 (0 : Fin 1) k)) * w (ix2 k q) := by
  unfold Gen.k0_pay1
  simp only [shapeCast_self]
  refine (Cert.LibSignMatmul.sign_matmul_apply _ none _ w _ p q).trans ?_
  refine Finset.sum_congr rfl fun k _ => ?_
  rw [mulf_apply, subf_apply, broadcastTo_1b_ab_apply, broadcastTo_1b_ab_apply]

variable (V : (c : Dev nD) → (b : Ref sig .tc) → Buf (Elt Ideal) ((c : Thread nD τ).loc b))

/-- The printed index maps, decided over the 50 points: the input's and the output's row block is the point's number,
    the two statistics rows' and the weight's block is always the first, and no window moves along the columns. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The input block at point t is rows 2000 t … 2000 t + 1999 of the input array. -/
theorem iblk0_0_apply (c : Dev nD) (t : Fin cfg0.N) (p : Fin 2000) (k : Fin 256) (h : 2000 * t.val + p.val < 100000) :
    (Gen.iblk0 V c 0 t : Vec Ideal S2000x256 .f32) (ix2 p k)
      = (V c (Pipeline.arrRef spec0 0) : S100000x256.Idx → EReal) (ix2 (⟨2000 * t.val + p.val, h⟩ : Fin 100000) k) := by
  obtain ⟨e0, e1, -⟩ := idx_facts0 t
  unfold Gen.iblk0
  show V c (Pipeline.arrRef spec0 0) (((cfg0.win 0).blk t).view.emb (ix2 p k)) = _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 256 + 1 * k.val = k.val; rw [e1]; omega

/-- The block of column means at every point is the whole row of means. -/
theorem iblk0_1_apply (c : Dev nD) (t : Fin cfg0.N) (k : Fin 256) :
    (Gen.iblk0 V c 1 t : Vec Ideal S1x256 .f32) (ix2 (0 : Fin 1) k)
      = (V c (Pipeline.arrRef spec0 1) : S1x256.Idx → EReal) (ix2 (0 : Fin 1) k) := by
  obtain ⟨-, -, e0, e1, -⟩ := idx_facts0 t
  unfold Gen.iblk0
  show V c (Pipeline.arrRef spec0 1) (((cfg0.win 1).blk t).view.emb (ix2 (0 : Fin 1) k)) = _
  congr 1
  funext a
  apply Fin.ext
  match a with
  | ⟨0, _⟩ => show win0_1.index t (0 : Fin 2) * 1 + 1 * 0 = 0; rw [e0]
  | ⟨1, _⟩ => show win0_1.index t (1 : Fin 2) * 256 + 1 * k.val = k.val; rw [e1]; omega

/-- The block of inverse deviations at every point is the whole row of inverse deviations. -/
theorem iblk0_2_apply (c : Dev nD) (t : Fin cfg0.N) (k : Fin 256) :
    (Gen.iblk0 V c 2 t : Vec Ideal S1x256 .f32) (ix2 (0 : Fin 1) k)
      = (V c (Pipeline.arrRef spec0 2) : S1x256.Idx → EReal) (ix2 (0 : Fin 1) k) := by
  obtain ⟨-, -, -, -, e0, e1, -⟩ := idx_facts0 t
  unfold Gen.iblk0
  show V c (Pipeline.arrRef spec0 2) (((cfg0.win 2).blk t).view.emb (ix2 (0 : Fin 1) k)) = _
  congr 1
  funext a
  apply Fin.ext
  match a with
  | ⟨0, _⟩ => show win0_2.index t (0 : Fin 2) * 1 + 1 * 0 = 0; rw [e0]
  | ⟨1, _⟩ => show win0_2.index t (1 : Fin 2) * 256 + 1 * k.val = k.val; rw [e1]; omega

/-- The weight block at every point is the whole weight array. -/
theorem iblk0_3_apply (c : Dev nD) (t : Fin cfg0.N) (k : Fin 256) (q : Fin 128) :
    (Gen.iblk0 V c 3 t : Vec Ideal S256x128 .bf16) (ix2 k q)
      = (V c (Pipeline.arrRef spec0 3) : S256x128.Idx → EReal) (ix2 k q) := by
  obtain ⟨-, -, -, -, -, -, e0, e1, -⟩ := idx_facts0 t
  unfold Gen.iblk0
  show V c (Pipeline.arrRef spec0 3) (((cfg0.win 3).blk t).view.emb (ix2 k q)) = _
  congr 1
  funext a
  apply Fin.ext
  match a with
  | ⟨0, _⟩ => show win0_3.index t (0 : Fin 2) * 256 + 1 * k.val = k.val; rw [e0]; omega
  | ⟨1, _⟩ => show win0_3.index t (1 : Fin 2) * 128 + 1 * q.val = q.val; rw [e1]; omega

/-- Two arrays' blocks at point t agree as soon as entry (p, q) of the one is entry (2000 t + p, q) of the other: the
    output's block at point t is rows 2000 t … 2000 t + 1999, all 128 columns. -/
theorem blk0_4_ext (t : Fin cfg0.N) (X : Vec Ideal S2000x128 .f32) (G : S100000x128.Idx → EReal)
    (h : ∀ (p : Fin 2000) (q : Fin 128) (hr : 2000 * t.val + p.val < 100000),
      X (ix2 p q) = G (ix2 (⟨2000 * t.val + p.val, hr⟩ : Fin 100000) q)) :
    (cfg0.win 4).cut (grid0.coords t) X = ((cfg0.win 4).blk t).view.read (Elt Ideal) G := by
  funext j
  have hN : t.val < 50 := by have := t.isLt; have e : cfg0.N = 50 := Gen.N_0; omega
  have hp : (j 0).val < 2000 := (j 0).isLt
  have hq : (j 1).val < 128 := (j 1).isLt
  have hr : 2000 * t.val + (j 0).val < 100000 := by omega
  obtain ⟨-, -, -, -, -, -, -, -, e0, e1⟩ := idx_facts0 t
  have hy : (cfg0.win 4).xinj (grid0.coords t) j = ix2 (⟨(j 0).val, hp⟩ : Fin 2000) (⟨(j 1).val, hq⟩ : Fin 128) := by
    funext a
    match a with
    | ⟨0, _⟩ => rfl
    | ⟨1, _⟩ => rfl
  have he : ((cfg0.win 4).blk t).view.emb j = ix2 (⟨2000 * t.val + (j 0).val, hr⟩ : Fin 100000) (⟨(j 1).val, hq⟩ : Fin 128) := by
    funext a
    apply Fin.ext
    match a with
    | ⟨0, _⟩ => show win0_4.index t (0 : Fin 2) * 2000 + 1 * (j 0).val = 2000 * t.val + (j 0).val; rw [e0]; omega
    | ⟨1, _⟩ => show win0_4.index t (1 : Fin 2) * 128 + 1 * (j 1).val = (j 1).val; rw [e1]; omega
  show X ((cfg0.win 4).xinj (grid0.coords t) j) = G (((cfg0.win 4).blk t).view.emb j)
  rw [hy, he]
  exact h _ _ hr

/-- WHAT POINT t WRITES BACK is rows 2000 t … 2000 t + 1999 of sign(normalized input) · weight. -/
theorem flushed0_eq (c : Dev nD) (t : Fin cfg0.N) :
    (Gen.dat0 (F := Ideal) V c).flushed 4 t = ((cfg0.win 4).blk t).view.read (Elt Ideal)
      (Cert.Spec.signDot (Cert.Spec.bn (V c (Pipeline.arrRef spec0 0)) (V c (Pipeline.arrRef spec0 1))
        (V c (Pipeline.arrRef spec0 2))) (V c (Pipeline.arrRef spec0 3))) := by
  show (cfg0.win 4).cut (grid0.coords t) ((Gen.dat0 V c).after 4 t) = _
  rw [Gen.after0_4]
  unfold Gen.out0_4
  rw [View.canon_unit_zero hz0]
  simp only [View.ld_unit_zero (S := S2000x256) hz0, View.ld_unit_zero (S := S1x256) hz0,
    View.ld_unit_zero (S := S256x128) hz0]
  refine blk0_4_ext t _ _ fun p q hr => ?_
  rw [pay0_apply, Cert.Spec.signDot_apply]
  refine Finset.sum_congr rfl fun k _ => ?_
  rw [Cert.Spec.bn_apply, iblk0_0_apply V c t p k hr, iblk0_1_apply V c t k, iblk0_2_apply V c t k,
    iblk0_3_apply V c t k]

/-- An entry of the output array is in point t's block iff each coordinate is in the block's range on its axis. -/
theorem mem_blk0 (t : Fin cfg0.N) (i : S100000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v67).slice (win0_4.rect t)).set ↔ _
  rw [View.set_slice_whole, Rect.mem_set_unit]
  exact Iff.rfl

/-- Every entry of the output array is in the block of a point that writes back: row r is in the block of point
    r / 2000, whose rows are 2000 (r / 2000) … 2000 (r / 2000) + 1999, and every block spans the 128 columns. -/
theorem cover0 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 50 := Gen.N_0
  obtain ⟨t, ht⟩ : ∃ t : Fin cfg0.N, t.val = (i 0).val / 2000 := ⟨⟨(i 0).val / 2000, by omega⟩, rfl⟩
  obtain ⟨-, -, -, -, -, -, -, -, e0, e1⟩ := idx_facts0 t
  refine ⟨t, Gen.flush0_4 t, ?_⟩
  rw [mem_blk0]
  intro a
  match a with
  | ⟨0, _⟩ =>
    show win0_4.index t (0 : Fin 2) * 2000 ≤ (i 0).val ∧ (i 0).val < win0_4.index t (0 : Fin 2) * 2000 + 2000
    rw [e0]; omega
  | ⟨1, _⟩ =>
    show win0_4.index t (1 : Fin 2) * 128 ≤ (i 1).val ∧ (i 1).val < win0_4.index t (1 : Fin 2) * 128 + 128
    rw [e1]; omega

/-- THE OUTPUT ARRAY after the 50 points is sign(normalized input) · weight of the arrays as the region finds them. -/
theorem region0_value (c : Dev nD) :
    (Gen.dat0 (F := Ideal) V c).arrAt 4 cfg0.N
      = Cert.Spec.signDot (Cert.Spec.bn (V c (Pipeline.arrRef spec0 0)) (V c (Pipeline.arrRef spec0 1))
          (V c (Pipeline.arrRef spec0 2))) (V c (Pipeline.arrRef spec0 3)) :=
  (Gen.dat0 V c).arrAt_eq_of_cover 4 _ (fun t _ => flushed0_eq V c t) cover0

end Cert.KernelIdeal.RegionValue

end
-- ==== Proof.Region1.lean ====
/-
  REGION 1: the binarized linear layer over the 100000 × 128 hidden array, 2000 rows at a time.

  Point t of the 50 loads rows 2000 t … 2000 t + 1999 of the input and the whole 128 × 128 weight, and stores
  sign(block) · weight as rows 2000 t … 2000 t + 1999 of the output. Entry (r, c) of the output therefore depends on
  row r of the input and column c of the weight alone, every row lies in exactly one point's block, and after the 50
  points the output array is sign(input) · weight, whatever the three arrays held when the region was entered.
-/
import proofs.«172713_j53051436040761_1_alg».proof.Proof.Gen.KernelIdeal.Frame
import proofs.«172713_j53051436040761_1_alg».proof.Proof.Spec
import proofs.«172713_j53051436040761_1_alg».proof.Proof.LibSignMatmul

set_option maxRecDepth 16384

noncomputable section

open scoped BigOperators

namespace Cert.KernelIdeal.RegionValue

open Idealize.ShloMosaic Idealize.ShloMosaic.TcCoe Idealize.ShloMosaic.ValueIdx
open Idealize.ShloMosaic.Pipeline (Dat Cfg Window)

/-- The two zero offsets of a whole-block access, however they are spelt. -/
theorem hz1 : (![0, 0] : Fin 2 → Nat) = fun _ => 0 := funext fun a => by fin_cases a <;> rfl

/-- Entry (p, q) of what the body computes from its two loaded blocks: the sum over k of sign(x[p, k]) · w[k, q]. -/
theorem pay1_apply (x0 : Vec Ideal S2000x128 .f32) (w : Vec Ideal S128x128 .bf16) (p : Fin 2000) (q : Fin 128) :
    Gen.k1_pay1 x0 w (ix2 p q) = ∑ k : Fin 128, Ideal.sign (x0 (ix2 p k)) * w (ix2 k q) := by
  unfold Gen.k1_pay1
  rw [shapeCast_self, shapeCast_self]
  exact Cert.LibSignMatmul.sign_matmul_apply _ none x0 w _ p q

variable (V : (c : Dev nD) → (b : Ref sig .tc) → Buf (Elt Ideal) ((c : Thread nD τ).loc b))

/-- The printed index maps, decided over the 50 points: the input's and the output's row block is the point's number,
    the weight's block is always the first, and no window moves along the columns. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input block at point t is rows 2000 t … 2000 t + 1999 of the input array. -/
theorem iblk1_0_apply (c : Dev nD) (t : Fin cfg1.N) (p : Fin 2000) (k : Fin 128) (h : 2000 * t.val + p.val < 100000) :
    (Gen.iblk1 V c 0 t : Vec Ideal S2000x128 .f32) (ix2 p k)
      = (V c (Pipeline.arrRef spec1 0) : S100000x128.Idx → EReal) (ix2 (⟨2000 * t.val + p.val, h⟩ : Fin 100000) k) := by
  obtain ⟨e0, e1, -⟩ := idx_facts1 t
  unfold Gen.iblk1
  show V c (Pipeline.arrRef spec1 0) (((cfg1.win 0).blk t).view.emb (ix2 p k)) = _
  congr 1
  funext a
  apply Fin.ext
  match a with
  | ⟨0, _⟩ => show win1_0.index t (0 : Fin 2) * 2000 + 1 * p.val = 2000 * t.val + p.val; rw [e0]; omega
  | ⟨1, _⟩ => show win1_0.index t (1 : Fin 2) * 128 + 1 * k.val = k.val; rw [e1]; omega

/-- The weight block at every point is the whole weight array. -/
theorem iblk1_1_apply (c : Dev nD) (t : Fin cfg1.N) (k : Fin 128) (q : Fin 128) :
    (Gen.iblk1 V c 1 t : Vec Ideal S128x128 .bf16) (ix2 k q)
      = (V c (Pipeline.arrRef spec1 1) : S128x128.Idx → EReal) (ix2 k q) := by
  obtain ⟨-, -, e0, e1, -⟩ := idx_facts1 t
  unfold Gen.iblk1
  show V c (Pipeline.arrRef spec1 1) (((cfg1.win 1).blk t).view.emb (ix2 k q)) = _
  congr 1
  funext a
  apply Fin.ext
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- WHAT POINT t WRITES BACK is rows 2000 t … 2000 t + 1999 of sign(input) · weight. -/
theorem flushed1_eq (c : Dev nD) (t : Fin cfg1.N) :
    (Gen.dat1 (F := Ideal) V c).flushed 2 t = ((cfg1.win 2).blk t).view.read (Elt Ideal)
      (Cert.Spec.signDot (V c (Pipeline.arrRef spec1 0)) (V c (Pipeline.arrRef spec1 1))) := by
  show (cfg1.win 2).cut (grid1.coords t) ((Gen.dat1 V c).after 2 t) = _
  rw [Gen.after1_2]
  unfold Gen.out1_2
  rw [View.canon_unit_zero hz1]
  simp only [View.ld_unit_zero (S := S2000x128) hz1, View.ld_unit_zero (S := S128x128) hz1]
  funext j
  have hN : t.val < 50 := by have := t.isLt; have e : cfg1.N = 50 := Gen.N_1; omega
  have hp : (j 0).val < 2000 := (j 0).isLt
  have hq : (j 1).val < 128 := (j 1).isLt
  have hr : 2000 * t.val + (j 0).val < 100000 := by omega
  obtain ⟨-, -, -, -, e0, e1⟩ := idx_facts1 t
  have hy : (cfg1.win 2).xinj (grid1.coords t) j = ix2 (⟨(j 0).val, hp⟩ : Fin 2000) (⟨(j 1).val, hq⟩ : Fin 128) := by
    funext a
    match a with
    | ⟨0, _⟩ => rfl
    | ⟨1, _⟩ => rfl
  have he : ((cfg1.win 2).blk t).view.emb j = ix2 (⟨2000 * t.val + (j 0).val, hr⟩ : Fin 100000) (⟨(j 1).val, hq⟩ : Fin 128) := by
    funext a
    apply Fin.ext
    match a with
    | ⟨0, _⟩ => show win1_2.index t (0 : Fin 2) * 2000 + 1 * (j 0).val = 2000 * t.val + (j 0).val; rw [e0]; omega
    | ⟨1, _⟩ => show win1_2.index t (1 : Fin 2) * 128 + 1 * (j 1).val = (j 1).val; rw [e1]; omega
  show Gen.k1_pay1 (Gen.iblk1 V c 0 t) (Gen.iblk1 V c 1 t) ((cfg1.win 2).xinj (grid1.coords t) j)
    = Cert.Spec.signDot (V c (Pipeline.arrRef spec1 0)) (V c (Pipeline.arrRef spec1 1)) (((cfg1.win 2).blk t).view.emb j)
  rw [hy, he, pay1_apply, Cert.Spec.signDot_apply]
  refine Finset.sum_congr rfl fun k _ => ?_
  rw [iblk1_0_apply V c t ⟨(j 0).val, hp⟩ k hr, iblk1_1_apply V c t k]

/-- An entry of the output array is in point t's block iff each coordinate is in the block's range on its axis. -/
theorem mem_blk1 (t : Fin cfg1.N) (i : S100000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v84).slice (win1_2.rect t)).set ↔ _
  rw [View.set_slice_whole, Rect.mem_set_unit]
  exact Iff.rfl

/-- Every entry of the output array is in the block of a point that writes back: row r is in the block of point
    r / 2000, whose rows are 2000 (r / 2000) … 2000 (r / 2000) + 1999, and every block spans the 128 columns. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := Gen.N_1
  obtain ⟨t, ht⟩ : ∃ t : Fin cfg1.N, t.val = (i 0).val / 2000 := ⟨⟨(i 0).val / 2000, by omega⟩, rfl⟩
  obtain ⟨-, -, -, -, e0, e1⟩ := idx_facts1 t
  refine ⟨t, Gen.flush1_2 t, ?_⟩
  rw [mem_blk1]
  intro a
  match a with
  | ⟨0, _⟩ =>
    show win1_2.index t (0 : Fin 2) * 2000 ≤ (i 0).val ∧ (i 0).val < win1_2.index t (0 : Fin 2) * 2000 + 2000
    rw [e0]; omega
  | ⟨1, _⟩ =>
    show win1_2.index t (1 : Fin 2) * 128 ≤ (i 1).val ∧ (i 1).val < win1_2.index t (1 : Fin 2) * 128 + 128
    rw [e1]; omega

/-- THE OUTPUT ARRAY after the 50 points is sign(input) · weight of the arrays as the region finds them. -/
theorem region1_value (c : Dev nD) :
    (Gen.dat1 (F := Ideal) V c).arrAt 2 cfg1.N
      = Cert.Spec.signDot (V c (Pipeline.arrRef spec1 0)) (V c (Pipeline.arrRef spec1 1)) :=
  (Gen.dat1 V c).arrAt_eq_of_cover 2 _ (fun t _ => flushed1_eq V c t) cover1

end Cert.KernelIdeal.RegionValue

end
-- ==== Proof.Region2.lean ====
/-
  REGION 2: the binarized output layer over the 100000 × 128 hidden array, 2000 rows at a time.

  Point t of the 50 loads rows 2000 t … 2000 t + 1999 of the input and the whole 128 × 40 weight, and stores
  sign(block) · weight as rows 2000 t … 2000 t + 1999 of the 100000 × 40 output. Entry (r, c) of the output therefore
  depends on row r of the input and column c of the weight alone, every row lies in exactly one point's block, and after
  the 50 points the output array is sign(input) · weight, whatever the three arrays held when the region was entered.
-/
import proofs.«172713_j53051436040761_1_alg».proof.Proof.Gen.KernelIdeal.Frame
import proofs.«172713_j53051436040761_1_alg».proof.Proof.Spec
import proofs.«172713_j53051436040761_1_alg».proof.Proof.LibSignMatmul

set_option maxRecDepth 16384

noncomputable section

open scoped BigOperators

namespace Cert.KernelIdeal.RegionValue

open Idealize.ShloMosaic Idealize.ShloMosaic.TcCoe Idealize.ShloMosaic.ValueIdx
open Idealize.ShloMosaic.Pipeline (Dat Cfg Window)

/-- The two zero offsets of a whole-block access, however they are spelt. -/
theorem hz2 : (![0, 0] : Fin 2 → Nat) = fun _ => 0 := funext fun a => by fin_cases a <;> rfl

/-- Entry (p, q) of what the body computes from its two loaded blocks: the sum over k of sign(x[p, k]) · w[k, q]. -/
theorem pay2_apply (x0 : Vec Ideal S2000x128 .f32) (w : Vec Ideal S128x40 .bf16) (p : Fin 2000) (q : Fin 40) :
    Gen.k2_pay1 x0 w (ix2 p q) = ∑ k : Fin 128, Ideal.sign (x0 (ix2 p k)) * w (ix2 k q) := by
  unfold Gen.k2_pay1
  rw [shapeCast_self, shapeCast_self]
  exact Cert.LibSignMatmul.sign_matmul_apply _ none x0 w _ p q

variable (V : (c : Dev nD) → (b : Ref sig .tc) → Buf (Elt Ideal) ((c : Thread nD τ).loc b))

/-- The printed index maps, decided over the 50 points: the input's and the output's row block is the point's number,
    the weight's block is always the first, and no window moves along the columns. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input block at point t is rows 2000 t … 2000 t + 1999 of the input array. -/
theorem iblk2_0_apply (c : Dev nD) (t : Fin cfg2.N) (p : Fin 2000) (k : Fin 128) (h : 2000 * t.val + p.val < 100000) :
    (Gen.iblk2 V c 0 t : Vec Ideal S2000x128 .f32) (ix2 p k)
      = (V c (Pipeline.arrRef spec2 0) : S100000x128.Idx → EReal) (ix2 (⟨2000 * t.val + p.val, h⟩ : Fin 100000) k) := by
  obtain ⟨e0, e1, -⟩ := idx_facts2 t
  unfold Gen.iblk2
  show V c (Pipeline.arrRef spec2 0) (((cfg2.win 0).blk t).view.emb (ix2 p k)) = _
  congr 1
  funext a
  apply Fin.ext
  match a with
  | ⟨0, _⟩ => show win2_0.index t (0 : Fin 2) * 2000 + 1 * p.val = 2000 * t.val + p.val; rw [e0]; omega
  | ⟨1, _⟩ => show win2_0.index t (1 : Fin 2) * 128 + 1 * k.val = k.val; rw [e1]; omega

/-- The weight block at every point is the whole weight array. -/
theorem iblk2_1_apply (c : Dev nD) (t : Fin cfg2.N) (k : Fin 128) (q : Fin 40) :
    (Gen.iblk2 V c 1 t : Vec Ideal S128x40 .bf16) (ix2 k q)
      = (V c (Pipeline.arrRef spec2 1) : S128x40.Idx → EReal) (ix2 k q) := by
  obtain ⟨-, -, e0, e1, -⟩ := idx_facts2 t
  unfold Gen.iblk2
  show V c (Pipeline.arrRef spec2 1) (((cfg2.win 1).blk t).view.emb (ix2 k q)) = _
  congr 1
  funext a
  apply Fin.ext
  match a with
  | ⟨0, _⟩ => show win2_1.index t (0 : Fin 2) * 128 + 1 * k.val = k.val; rw [e0]; omega
  | ⟨1, _⟩ => show win2_1.index t (1 : Fin 2) * 40 + 1 * q.val = q.val; rw [e1]; omega

/-- WHAT POINT t WRITES BACK is rows 2000 t … 2000 t + 1999 of sign(input) · weight. -/
theorem flushed2_eq (c : Dev nD) (t : Fin cfg2.N) :
    (Gen.dat2 (F := Ideal) V c).flushed 2 t = ((cfg2.win 2).blk t).view.read (Elt Ideal)
      (Cert.Spec.signDot (V c (Pipeline.arrRef spec2 0)) (V c (Pipeline.arrRef spec2 1))) := by
  show (cfg2.win 2).cut (grid2.coords t) ((Gen.dat2 V c).after 2 t) = _
  rw [Gen.after2_2]
  unfold Gen.out2_2
  rw [View.canon_unit_zero hz2]
  simp only [View.ld_unit_zero (S := S2000x128) hz2, View.ld_unit_zero (S := S128x40) hz2]
  funext j
  have hN : t.val < 50 := by have := t.isLt; have e : cfg2.N = 50 := Gen.N_2; omega
  have hp : (j 0).val < 2000 := (j 0).isLt
  have hq : (j 1).val < 40 := (j 1).isLt
  have hr : 2000 * t.val + (j 0).val < 100000 := by omega
  obtain ⟨-, -, -, -, e0, e1⟩ := idx_facts2 t
  have hy : (cfg2.win 2).xinj (grid2.coords t) j = ix2 (⟨(j 0).val, hp⟩ : Fin 2000) (⟨(j 1).val, hq⟩ : Fin 40) := by
    funext a
    match a with
    | ⟨0, _⟩ => rfl
    | ⟨1, _⟩ => rfl
  have he : ((cfg2.win 2).blk t).view.emb j = ix2 (⟨2000 * t.val + (j 0).val, hr⟩ : Fin 100000) (⟨(j 1).val, hq⟩ : Fin 40) := by
    funext a
    apply Fin.ext
    match a with
    | ⟨0, _⟩ => show win2_2.index t (0 : Fin 2) * 2000 + 1 * (j 0).val = 2000 * t.val + (j 0).val; rw [e0]; omega
    | ⟨1, _⟩ => show win2_2.index t (1 : Fin 2) * 40 + 1 * (j 1).val = (j 1).val; rw [e1]; omega
  show Gen.k2_pay1 (Gen.iblk2 V c 0 t) (Gen.iblk2 V c 1 t) ((cfg2.win 2).xinj (grid2.coords t) j)
    = Cert.Spec.signDot (V c (Pipeline.arrRef spec2 0)) (V c (Pipeline.arrRef spec2 1)) (((cfg2.win 2).blk t).view.emb j)
  rw [hy, he, pay2_apply, Cert.Spec.signDot_apply]
  refine Finset.sum_congr rfl fun k _ => ?_
  rw [iblk2_0_apply V c t ⟨(j 0).val, hp⟩ k hr, iblk2_1_apply V c t k]

/-- An entry of the output array is in point t's block iff each coordinate is in the block's range on its axis. -/
theorem mem_blk2 (t : Fin cfg2.N) (i : S100000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v101).slice (win2_2.rect t)).set ↔ _
  rw [View.set_slice_whole, Rect.mem_set_unit]
  exact Iff.rfl

/-- Every entry of the output array is in the block of a point that writes back: row r is in the block of point
    r / 2000, whose rows are 2000 (r / 2000) … 2000 (r / 2000) + 1999, and every block spans the 40 columns. -/
theorem cover2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 50 := Gen.N_2
  obtain ⟨t, ht⟩ : ∃ t : Fin cfg2.N, t.val = (i 0).val / 2000 := ⟨⟨(i 0).val / 2000, by omega⟩, rfl⟩
  obtain ⟨-, -, -, -, e0, e1⟩ := idx_facts2 t
  refine ⟨t, Gen.flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    rw [e0]; omega
  | ⟨1, _⟩ =>
    show win2_2.index t (1 : Fin 2) * 40 ≤ (i 1).val ∧ (i 1).val < win2_2.index t (1 : Fin 2) * 40 + 40
    rw [e1]; omega

/-- THE OUTPUT ARRAY after the 50 points is sign(input) · weight of the arrays as the region finds them. -/
theorem region2_value (c : Dev nD) :
    (Gen.dat2 (F := Ideal) V c).arrAt 2 cfg2.N
      = Cert.Spec.signDot (V c (Pipeline.arrRef spec2 0)) (V c (Pipeline.arrRef spec2 1)) :=
  (Gen.dat2 V c).arrAt_eq_of_cover 2 _ (fun t _ => flushed2_eq V c t) cover2

end Cert.KernelIdeal.RegionValue

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.RefLaws.lean ====
/-
  Two laws that read the reference's host spelling of a binarized layer as the functions of Spec.lean, on the
  extended reals, generic in the row count and the widths.

  * `dot_sign`: a host matrix product (plain dimension numbers) whose left operand is the elementwise sign of `H` is,
    entry by entry, the sum over the contracted axis of sign(H[r, k]) · W[k, c]: `Spec.signDot H W`.
  * `host_bn`: subtracting the column means and multiplying by the column inverse deviations, each vector first laid out
    as one row and then repeated down the rows (two `broadcast_in_dim` steps), is `Spec.bn` with ANY two rows whose
    entry (0, k) is the vector's entry k — in particular the vectors reshaped to one row.
  Neither needs finiteness: the two sides are the same expression entry by entry.
-/
import proofs.«172713_j53051436040761_1_alg».proof.Proof.Spec
import proofs.«172713_j53051436040761_1_alg».proof.Proof.LibMlpRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefLaws

open Idealize.ShloMosaic Idealize.ShloMosaic.ValueIdx

/-- The host's product of sign(H) with W, at every entry, is the sum of sign(H[r, k]) · W[k, c] over k. -/
theorem dot_sign {A K C : ℕ} {φ : FTy} (d : DotDims ⟨2, ![A, K]⟩ ⟨2, ![K, C]⟩ ⟨2, ![A, C]⟩) (hd : d = DotDims.plain A K C)
    (H : FVec Ideal ⟨2, ![A, K]⟩ .f32) (W : FVec Ideal ⟨2, ![K, C]⟩ φ) :
    Host.dotGeneral d none (Host.sign H) W = Cert.Spec.signDot H W := by
  subst hd
  funext i
  obtain ⟨p, q, rfl⟩ : ∃ (p : Fin A) (q : Fin C), i = ix2 p q := ⟨i 0, i 1, eq_ix2 i⟩
  simp only [Host.dotGeneral]
  rw [Cert.LibMlp.dotGeneral_plain]
  rfl

/-- A vector repeated down the rows in the host's two steps (to one row, then to every row), read at (r, k), is its entry k. -/
theorem row_bcast_apply {A K : ℕ} (v : FVec Ideal ⟨1, ![K]⟩ .f32)
    (h1 : (⟨1, ![K]⟩ : Shape).BroadcastsInDim ⟨2, ![1, K]⟩ ![1]) (h2 : (⟨2, ![1, K]⟩ : Shape).BroadcastsInDim ⟨2, ![A, K]⟩ ![0, 1])
    (r : Fin A) (k : Fin K) :
    broadcastInDim ⟨2, ![A, K]⟩ ![0, 1] h2 (broadcastInDim ⟨2, ![1, K]⟩ ![1] h1 v) (ix2 r k) = v (ix1 k) := by
  rw [broadcastInDim_apply ![0, 1] h2 _ (ix2 r k) (ix2 (0 : Fin 1) k) (fun a => by
    match a with
    | ⟨0, _⟩ => rfl
    | ⟨1, _⟩ => show k.val = if K = 1 then 0 else k.val; split <;> [(have := k.isLt; omega); rfl])]
  exact broadcastInDim_apply ![1] h1 _ (ix2 (0 : Fin 1) k) (ix1 k) (fun a => by
    match a with
    | ⟨0, _⟩ => show k.val = if K = 1 then 0 else k.val; split <;> [(have := k.isLt; omega); rfl])

/-- The host's batch normalization is `Spec.bn` over any two rows that hold the two vectors. -/
theorem host_bn {A K : ℕ} (x : FVec Ideal ⟨2, ![A, K]⟩ .f32) (mu inv : FVec Ideal ⟨1, ![K]⟩ .f32)
    (h1 : (⟨1, ![K]⟩ : Shape).BroadcastsInDim ⟨2, ![1, K]⟩ ![1]) (h2 : (⟨2, ![1, K]⟩ : Shape).BroadcastsInDim ⟨2, ![A, K]⟩ ![0, 1])
    (MU INV : (⟨2, ![1, K]⟩ : Shape).Idx → EReal)
    (hmu : ∀ k : Fin K, MU (ix2 (0 : Fin 1) k) = mu (ix1 k)) (hinv : ∀ k : Fin K, INV (ix2 (0 : Fin 1) k) = inv (ix1 k)) :
    mulf (subf x (broadcastInDim ⟨2, ![A, K]⟩ ![0, 1] h2 (broadcastInDim ⟨2, ![1, K]⟩ ![1] h1 mu)))
      (broadcastInDim ⟨2, ![A, K]⟩ ![0, 1] h2 (broadcastInDim ⟨2, ![1, K]⟩ ![1] h1 inv))
    = Cert.Spec.bn x MU INV := by
  funext i
  obtain ⟨r, k, rfl⟩ : ∃ (r : Fin A) (k : Fin K), i = ix2 r k := ⟨i 0, i 1, eq_ix2 i⟩
  rw [mulf_apply, subf_apply, row_bcast_apply, row_bcast_apply, Cert.Spec.bn_apply, hmu, hinv]

end Cert.RefLaws

end
-- ==== Proof.BridgeC.lean ====
/-
  The three binarized layers, one after the other, and the result.

  Layer by layer the idealized kernel program and the reference hold the same array:
  * region 0 leaves sign(bn(x)) · W0' (`signDot` of `bn`), and the reference's first product is the same sum once its
    two-step broadcasts of the column means and inverse deviations are read as the rows the kernel is handed;
  * the aggregation D^{-1/2}(A+I)D^{-1/2} h + b is the same host expression of the same arrays on both sides (source,
    destination, per-edge normalization and bias agree by the previous modules), so regions 1 and 2 are entered with equal
    inputs and equal binarized weights, and leave equal products;
  * the last aggregation and the row-wise log-softmax are again one expression of equal arrays.
  No step rearranges a sum or uses finiteness: each is the same term read on both sides.
-/
import proofs.«172713_j53051436040761_1_alg».proof.Proof.BridgeA
import proofs.«172713_j53051436040761_1_alg».proof.Proof.BridgeB8
import proofs.«172713_j53051436040761_1_alg».proof.Proof.BridgeB10
import proofs.«172713_j53051436040761_1_alg».proof.Proof.Region0
import proofs.«172713_j53051436040761_1_alg».proof.Proof.Region1
import proofs.«172713_j53051436040761_1_alg».proof.Proof.Region2
import proofs.«172713_j53051436040761_1_alg».proof.Proof.RefLaws
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen (W0 W1 W2 W3 W4 W5 W6 W7 W8 W9 W10 W11 W12 V5 V7 V9 W6_arr W8_arr W10_arr)
open Cert.ReferenceIdeal.RefStage (R1 R2 R3 R4 R1_v54 R1_v44 R2_v79 R3_v104 R1_v31 R2_v31 R3_v31 dot0_plain dot1_plain dot2_plain)
open Cert.KernelIdeal.RegionValue (region0_value region1_value region2_value)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-! ## What each region leaves, over the contents it was entered with -/

/-- Region 0's output array: the binarized product of the normalized features with the first weight matrix. -/
theorem K6_out : W6 (F := Ideal) m ρ c (Proc.devRef .tc Cert.KernelIdeal.main_v67)
    = Cert.Spec.signDot (Cert.Spec.bn (W5 (F := Ideal) m ρ c (Proc.devRef .tc Cert.KernelIdeal.main_arg0)) (W5 (F := Ideal) m ρ c (Proc.devRef .tc Cert.KernelIdeal.main_v65)) (W5 (F := Ideal) m ρ c (Proc.devRef .tc Cert.KernelIdeal.main_v66))) (W5 (F := Ideal) m ρ c (Proc.devRef .tc Cert.KernelIdeal.main_v46)) :=
  (W6_arr m ρ c 4).trans (region0_value (V5 m ρ) c)

/-- Region 1's output array. -/
theorem K8_out : W8 (F := Ideal) m ρ c (Proc.devRef .tc Cert.KernelIdeal.main_v84) = Cert.Spec.signDot (W7 (F := Ideal) m ρ c (Proc.devRef .tc Cert.KernelIdeal.main_v83)) (W7 (F := Ideal) m ρ c (Proc.devRef .tc Cert.KernelIdeal.main_v55)) :=
  (W8_arr m ρ c 2).trans (region1_value (V7 m ρ) c)

/-- Region 2's output array. -/
theorem K10_out : W10 (F := Ideal) m ρ c (Proc.devRef .tc Cert.KernelIdeal.main_v101) = Cert.Spec.signDot (W9 (F := Ideal) m ρ c (Proc.devRef .tc Cert.KernelIdeal.main_v100)) (W9 (F := Ideal) m ρ c (Proc.devRef .tc Cert.KernelIdeal.main_v64)) :=
  (W10_arr m ρ c 2).trans (region2_value (V9 m ρ) c)

/-! ## Layer 0 -/

set_option maxHeartbeats 8000000 in
/-- The row of column means the kernel is handed holds, at (0, k), the reference's mean of column k. -/
theorem Mu65 (hag : Agree m m' c) (k : Fin 256) :
    W5 (F := Ideal) m ρ c (Proc.devRef .tc Cert.KernelIdeal.main_v65) (ix2 (0 : Fin 1) k) = R1 m' c (Proc.devRef .tc Cert.ReferenceIdeal.main_v34) (ix1 k) := by
  rw [← Mu_5 m ρ m' c hag]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  exact shapeCast_a_1a_apply _ _ 0 k

set_option maxHeartbeats 8000000 in
/-- The row of inverse deviations the kernel is handed holds, at (0, k), the reference's value for column k. -/
theorem Inv66 (hag : Agree m m' c) (k : Fin 256) :
    W5 (F := Ideal) m ρ c (Proc.devRef .tc Cert.KernelIdeal.main_v66) (ix2 (0 : Fin 1) k) = R1 m' c (Proc.devRef .tc Cert.ReferenceIdeal.main_v41) (ix1 k) := by
  rw [← Inv_5 m ρ m' c hag]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  exact shapeCast_a_1a_apply _ _ 0 k

/-- After region 0 both programs hold sign(bn(x)) · W0'. -/
theorem H0 (hag : Agree m m' c) : W6 (F := Ideal) m ρ c (Proc.devRef .tc Cert.KernelIdeal.main_v67) = R1 m' c (Proc.devRef .tc Cert.ReferenceIdeal.main_v54) := by
  rw [K6_out, R1_v54, Cert.RefLaws.dot_sign _ dot0_plain, R1_v44,
    Cert.RefLaws.host_bn _ _ _ _ _ (W5 (F := Ideal) m ρ c (Proc.devRef .tc Cert.KernelIdeal.main_v65)) (W5 (F := Ideal) m ρ c (Proc.devRef .tc Cert.KernelIdeal.main_v66)) (Mu65 m ρ m' c hag) (Inv66 m ρ m' c hag),
    A0_5 m ρ m' c hag, Wt0 m ρ m' c hag]

/-! ## Layer 1 -/

set_option maxHeartbeats 8000000 in
/-- Region 1 is entered with the same aggregated features on both sides. -/
theorem In1 (hag : Agree m m' c) : W7 (F := Ideal) m ρ c (Proc.devRef .tc Cert.KernelIdeal.main_v83) = R2 m' c (Proc.devRef .tc Cert.ReferenceIdeal.main_v69) := by
  unfold R2
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [H0 m ρ m' c hag, C3_6 m ρ m' c hag, C6_6 m ρ m' c hag, C30_6 m ρ m' c hag, A3_6 m ρ m' c hag, R1_v31]
  rfl

/-- After region 1 both programs hold sign(h0) · W1'. -/
theorem H1 (hag : Agree m m' c) : W8 (F := Ideal) m ρ c (Proc.devRef .tc Cert.KernelIdeal.main_v84) = R2 m' c (Proc.devRef .tc Cert.ReferenceIdeal.main_v79) := by
  rw [K8_out, R2_v79, Cert.RefLaws.dot_sign _ dot1_plain, In1 m ρ m' c hag, Wt1 m ρ m' c hag]

/-! ## Layer 2 -/

set_option maxHeartbeats 8000000 in
/-- Region 2 is entered with the same aggregated features on both sides. -/
theorem In2 (hag : Agree m m' c) : W9 (F := Ideal) m ρ c (Proc.devRef .tc Cert.KernelIdeal.main_v100) = R3 m' c (Proc.devRef .tc Cert.ReferenceIdeal.main_v94) := by
  unfold R3
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [H1 m ρ m' c hag, C3_8 m ρ m' c hag, C6_8 m ρ m' c hag, C30_8 m ρ m' c hag, A5_8 m ρ m' c hag, R2_v31]
  rfl

/-- After region 2 both programs hold sign(h1) · W2'. -/
theorem H2 (hag : Agree m m' c) : W10 (F := Ideal) m ρ c (Proc.devRef .tc Cert.KernelIdeal.main_v101) = R3 m' c (Proc.devRef .tc Cert.ReferenceIdeal.main_v104) := by
  rw [K10_out, R3_v104, Cert.RefLaws.dot_sign _ dot2_plain, In2 m ρ m' c hag, Wt2 m ρ m' c hag]

/-! ## The result -/

set_option maxHeartbeats 8000000 in
/-- The last aggregation and the row-wise log-softmax give the same result array. -/
theorem final (hag : Agree m m' c) : W12 (F := Ideal) m ρ c (Proc.devRef .tc Cert.KernelIdeal.main_v118) = R4 m' c (Proc.devRef .tc Cert.ReferenceIdeal.main_v120) := by
  unfold R4
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [H2 m ρ m' c hag, C3_10 m ρ m' c hag, C6_10 m ρ m' c hag, C30_10 m ρ m' c hag, A7_10 m ρ m' c hag, R3_v31]
  rfl

end Cert.Bridge

end
-- ==== Proof.lean ====
/-
  A three-layer binarized graph convolution: batch-normalize the node features, then three times take the sign, multiply
  by a binarized weight matrix sign(W)·mean|W|, aggregate over the edges with the symmetric normalization
  D^{-1/2}(A+I)D^{-1/2} and add a bias; finish with a row-wise log-softmax. The kernel program computes each
  sign-and-multiply in a grid of fifty row blocks of 2000 rows (with the weights rounded to bfloat16); the reference
  computes it as one host matrix product. Everything else is the same host arithmetic in both programs.

  On the extended reals the two programs are the same function of the arguments, entry by entry, with no finiteness
  needed: a block's product is the restriction of the whole product to the block's rows (each entry is a sum over the
  contracted axis only), rounding to bfloat16 is the identity, the kernel's select-by-comparison sign is the order sign the
  host uses, and the kernel's row copies of the batch statistics hold the reference's two-step broadcasts. The three
  frames are the generated ones for the two kernel programs and the hand-written run read back for the reference;
  `preserves` restates the three sign-bit rewrites of the ideal pass; `algebraic` runs both programs and joins their results
  through `Bridge.final`.
-/
import proofs.«172713_j53051436040761_1_alg».proof.Defs
import proofs.«172713_j53051436040761_1_alg».proof.Proof.Gen.Kernel
import proofs.«172713_j53051436040761_1_alg».proof.Proof.Gen.Kernel.Skeleton
import proofs.«172713_j53051436040761_1_alg».proof.Proof.Gen.Kernel.Launch
import proofs.«172713_j53051436040761_1_alg».proof.Proof.Gen.Kernel.Points
import proofs.«172713_j53051436040761_1_alg».proof.Proof.Gen.Kernel.Frame
import proofs.«172713_j53051436040761_1_alg».proof.Proof.Gen.KernelIdeal
import proofs.«172713_j53051436040761_1_alg».proof.Proof.Gen.KernelIdeal.Skeleton
import proofs.«172713_j53051436040761_1_alg».proof.Proof.Gen.KernelIdeal.Launch
import proofs.«172713_j53051436040761_1_alg».proof.Proof.Gen.KernelIdeal.Points
import proofs.«172713_j53051436040761_1_alg».proof.Proof.Gen.KernelIdeal.Frame
import proofs.«172713_j53051436040761_1_alg».proof.Proof.Gen.ReferenceIdeal
import proofs.«172713_j53051436040761_1_alg».proof.Proof.Gen.Pre_finite_inputs
import proofs.«172713_j53051436040761_1_alg».proof.Proof.KRun
import proofs.«172713_j53051436040761_1_alg».proof.Proof.RefRun
import proofs.«172713_j53051436040761_1_alg».proof.Proof.RefStage
import proofs.«172713_j53051436040761_1_alg».proof.Proof.BridgeC
import Idealize.ShloMosaic.Adequacy
import Idealize.ShloMosaic.Init

noncomputable section

namespace Cert.Proof

open Idealize.ShloMosaic Idealize.ShloMosaic.TcCoe Idealize.SL.Sem Idealize.ShloMosaic.StableHlo

/-- The kernel program as printed terminates without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations, none of which writes an argument buffer. -/
theorem frame_ri : Cert.frame_ReferenceIdeal := fun m ρ _ =>
  (θ_run Cert.ReferenceIdeal.defs _ _).mono (fun r h c => by
      have k := Cert.ReferenceIdeal.RefStage.args_kept m c
      exact ⟨(h c _).trans k.1, (h c _).trans k.2.1, (h c _).trans k.2.2.1, (h c _).trans k.2.2.2.1,
        (h c _).trans k.2.2.2.2.1, (h c _).trans k.2.2.2.2.2.1, (h c _).trans k.2.2.2.2.2.2.1, (h c _).trans k.2.2.2.2.2.2.2⟩)
    (Cert.ReferenceIdeal.RefRun.run_main (F := Ideal) m ρ)

/-- The ideal pass rewrote three reads of a sign bit (one per kernel body) into a comparison with zero: each is the
    rule's own statement at the block's shape. -/
theorem preserves : Cert.preserves_Kernel_KernelIdeal :=
  ⟨IdealRules.sign_bit.statement Cert.KernelIdeal.S2000x256 .f32,
   IdealRules.sign_bit.statement Cert.KernelIdeal.S2000x128 .f32,
   IdealRules.sign_bit.statement Cert.KernelIdeal.S2000x128 .f32⟩

/-- From memories that agree on the arguments both idealized programs end with the same result array: the kernel
    program's last boundary contents at its result buffer, which the reference's fold equals by `Bridge.final`. -/
theorem algebraic : Cert.algebraic_KernelIdeal_ReferenceIdeal := by
  intro m ρ m' ρ' _ hagree
  refine ⟨fun c => Cert.KernelIdeal.Gen.W12 (F := Ideal) m ρ c (Proc.devRef .tc Cert.KernelIdeal.main_v118),
    Cert.KernelIdeal.KRun.run (F := Ideal) m ρ, ?_⟩
  refine (θ_run Cert.ReferenceIdeal.defs _ _).mono (fun r h c => ?_) (Cert.ReferenceIdeal.RefRun.run_main (F := Ideal) m' ρ')
  have hag : Cert.Bridge.Agree m m' c :=
    ⟨(hagree c).1, (hagree c).2.1, (hagree c).2.2.1, (hagree c).2.2.2.1, (hagree c).2.2.2.2.1, (hagree c).2.2.2.2.2.1,
      (hagree c).2.2.2.2.2.2.1, (hagree c).2.2.2.2.2.2.2⟩
  have k := Cert.ReferenceIdeal.RefStage.args_kept m' c
  refine ⟨(h c _).trans ?_, (h c _).trans k.1, (h c _).trans k.2.1, (h c _).trans k.2.2.1, (h c _).trans k.2.2.2.1,
    (h c _).trans k.2.2.2.2.1, (h c _).trans k.2.2.2.2.2.1, (h c _).trans k.2.2.2.2.2.2.1, (h c _).trans k.2.2.2.2.2.2.2⟩
  rw [Cert.ReferenceIdeal.RefStage.R4_eq]
  exact (Cert.Bridge.final m ρ m' c hag).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
